-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S2000x128 : Shape := ⟨2, ![2000, 128]⟩
abbrev S600000x128 : Shape := ⟨2, ![600000, 128]⟩
abbrev S1x128 : Shape := ⟨2, ![1, 128]⟩
abbrev S2000x1 : Shape := ⟨2, ![2000, 1]⟩
abbrev S50000x64 : Shape := ⟨2, ![50000, 64]⟩
abbrev S2000x64 : Shape := ⟨2, ![2000, 64]⟩
abbrev S600000x64 : Shape := ⟨2, ![600000, 64]⟩
abbrev S1x64 : Shape := ⟨2, ![1, 64]⟩
abbrev S2000 : Shape := ⟨1, ![2000]⟩

abbrev nBuf : Space → Nat
  | .hbm => 106
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x600000, .i32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000, .f32⟩
  | .hbm, ⟨40, _⟩ => ⟨S600000, .f32⟩
  | .hbm, ⟨41, _⟩ => ⟨S50000, .f32⟩
  | .hbm, ⟨42, _⟩ => ⟨S50000x1, .f32⟩
  | .hbm, ⟨43, _⟩ => ⟨S128x128, .bf16⟩
  | .hbm, ⟨44, _⟩ => ⟨S128x128, .bf16⟩
  | .hbm, ⟨45, _⟩ => ⟨S128x64, .bf16⟩
  | .hbm, ⟨46, _⟩ => ⟨S50000x128, .bf16⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .bf16⟩
  | .hbm, ⟨56, _⟩ => ⟨S600000x128, .f32⟩
  | .hbm, ⟨57, _⟩ => ⟨S600000x1, .f32⟩
  | .hbm, ⟨58, _⟩ => ⟨S600000x128, .f32⟩
  | .hbm, ⟨59, _⟩ => ⟨S600000x128, .f32⟩
  | .hbm, ⟨60, _⟩ => ⟨S_, .f32⟩
  | .hbm, ⟨61, _⟩ => ⟨S50000x128, .f32⟩
  | .hbm, ⟨62, _⟩ => ⟨S600000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .bf16⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .bf16⟩
  | .hbm, ⟨76, _⟩ => ⟨S600000x128, .f32⟩
  | .hbm, ⟨77, _⟩ => ⟨S600000x1, .f32⟩
  | .hbm, ⟨78, _⟩ => ⟨S600000x128, .f32⟩
  | .hbm, ⟨79, _⟩ => ⟨S600000x128, .f32⟩
  | .hbm, ⟨80, _⟩ => ⟨S_, .f32⟩
  | .hbm, ⟨81, _⟩ => ⟨S50000x128, .f32⟩
  | .hbm, ⟨82, _⟩ => ⟨S600000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x64, .bf16⟩
  | .hbm, ⟨87, _⟩ => ⟨S_, .i32⟩
  | .hbm, ⟨88, _⟩ => ⟨S600000, .i32⟩
  | .hbm, ⟨89, _⟩ => ⟨S600000, .i1⟩
  | .hbm, ⟨90, _⟩ => ⟨S_, .i32⟩
  | .hbm, ⟨91, _⟩ => ⟨S600000, .i32⟩
  | .hbm, ⟨92, _⟩ => ⟨S600000, .i32⟩
  | .hbm, ⟨93, _⟩ => ⟨S600000, .i32⟩
  | .hbm, ⟨94, _⟩ => ⟨S600000x1, .i32⟩
  | .hbm, ⟨95, _⟩ => ⟨S600000x64, .bf16⟩
  | .hbm, ⟨96, _⟩ => ⟨S600000x64, .f32⟩
  | .hbm, ⟨97, _⟩ => ⟨S600000x1, .f32⟩
  | .hbm, ⟨98, _⟩ => ⟨S600000x64, .f32⟩
  | .hbm, ⟨99, _⟩ => ⟨S600000x64, .f32⟩
  | .hbm, ⟨100, _⟩ => ⟨S_, .f32⟩
  | .hbm, ⟨101, _⟩ => ⟨S50000x64, .f32⟩
  | .hbm, ⟨102, _⟩ => ⟨S600000x1, .i32⟩
  | .hbm, ⟨103, _⟩ => ⟨S50000x64, .f32⟩
  | .hbm, ⟨104, _⟩ => ⟨S1x64, .f32⟩
  | .hbm, ⟨105, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .bf16⟩
  | .local _ .vmem, ⟨8, _⟩ => ⟨S2000x128, .bf16⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .bf16⟩
  | .local _ .vmem, ⟨17, _⟩ => ⟨S2000x128, .bf16⟩
  | .local _ .vmem, ⟨18, _⟩ => ⟨S2000x128, .bf16⟩
  | .local _ .vmem, ⟨19, _⟩ => ⟨S2000x128, .f32⟩
  | .local _ .vmem, ⟨20, _⟩ => ⟨S2000x128, .f32⟩
  | .local _ .vmem, ⟨21, _⟩ => ⟨S2000x128, .bf16⟩
  | .local _ .vmem, ⟨22, _⟩ => ⟨S2000x128, .bf16⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x64, .bf16⟩
  | .local _ .vmem, ⟨31, _⟩ => ⟨S2000x64, .bf16⟩
  | .local _ .vmem, ⟨32, _⟩ => ⟨S2000x64, .bf16⟩
  | .local _ .vmem, ⟨33, _⟩ => ⟨S2000x64, .f32⟩
  | .local _ .vmem, ⟨34, _⟩ => ⟨S2000x64, .f32⟩
  | .local _ .vmem, ⟨35, _⟩ => ⟨S2000x64, .bf16⟩
  | .local _ .vmem, ⟨36, _⟩ => ⟨S2000x64, .bf16⟩
  | .local _ .vmem, ⟨37, _⟩ => ⟨S2000x1, .f32⟩
  | .local _ .vmem, ⟨38, _⟩ => ⟨S2000x1, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_11 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x64_S2000x64_1_0_0_1_n_n_wf : DotDims.WF S2000x128 S128x64 S2000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .bf16 = 32 ∨ (Rect.block (s := S50000x128) S2000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .bf16 = 32 ∨ (Rect.block (s := S50000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .bf16 = 32 ∨ (Rect.block (s := S128x64) S128x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .bf16 = 32 ∨ (Rect.block (s := S50000x64) S2000x64.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .bf16 = 32 ∨ (Rect.block (s := S50000x64) S2000x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v64) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v80) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S50000x64 : Shape := ⟨2, ![50000, 64]⟩
abbrev S600000x64 : Shape := ⟨2, ![600000, 64]⟩
abbrev S1x64 : Shape := ⟨2, ![1, 64]⟩

abbrev nBuf : Space → Nat
  | .hbm => 195
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S2x600000, .i32⟩
  | 8 => ⟨S1x600000, .i32⟩
  | 9 => ⟨S600000, .i32⟩
  | 10 => ⟨S1x600000, .i32⟩
  | 11 => ⟨S600000, .i32⟩
  | 12 => ⟨S50000x128, .f32⟩
  | 13 => ⟨S_, .f32⟩
  | 14 => ⟨S600000, .f32⟩
  | 15 => ⟨S_, .f32⟩
  | 16 => ⟨S50000, .f32⟩
  | 17 => ⟨S600000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000, .f32⟩
  | 41 => ⟨S600000, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S600000x1, .f32⟩
  | 52 => ⟨S600000x128, .f32⟩
  | 53 => ⟨S600000x128, .f32⟩
  | 54 => ⟨S_, .f32⟩
  | 55 => ⟨S50000x128, .f32⟩
  | 56 => ⟨S600000x1, .i32⟩
  | 57 => ⟨S50000x128, .f32⟩
  | 58 => ⟨S50000, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S_, .f32⟩
  | 71 => ⟨S600000, .f32⟩
  | 72 => ⟨S_, .f32⟩
  | 73 => ⟨S50000, .f32⟩
  | 74 => ⟨S600000x1, .i32⟩
  | 75 => ⟨S50000, .f32⟩
  | 76 => ⟨S_, .f32⟩
  | 77 => ⟨S50000, .f32⟩
  | 78 => ⟨S50000, .f32⟩
  | 79 => ⟨S50000, .f32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000, .f32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000, .f32⟩
  | 98 => ⟨S600000, .f32⟩
  | 99 => ⟨S_, .i32⟩
  | 100 => ⟨S600000, .i32⟩
  | 101 => ⟨S600000, .i1⟩
  | 102 => ⟨S_, .i32⟩
  | 103 => ⟨S600000, .i32⟩
  | 104 => ⟨S600000, .i32⟩
  | 105 => ⟨S600000, .i32⟩
  | 106 => ⟨S600000x1, .i32⟩
  | 107 => ⟨S600000x128, .f32⟩
  | 108 => ⟨S600000x1, .f32⟩
  | 109 => ⟨S600000x128, .f32⟩
  | 110 => ⟨S600000x128, .f32⟩
  | 111 => ⟨S_, .f32⟩
  | 112 => ⟨S50000x128, .f32⟩
  | 113 => ⟨S600000x1, .i32⟩
  | 114 => ⟨S50000x128, .f32⟩
  | 115 => ⟨S50000, .f32⟩
  | 116 => ⟨S50000x1, .f32⟩
  | 117 => ⟨S50000x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x64, .f32⟩
  | 127 => ⟨S_, .f32⟩
  | _ => ⟨S50000x128, .f32⟩

abbrev hbmTy0_1 (i : Nat) : BufTy := match i % 128 with
  | 0 => ⟨S600000, .f32⟩
  | 1 => ⟨S_, .f32⟩
  | 2 => ⟨S50000, .f32⟩
  | 3 => ⟨S600000x1, .i32⟩
  | 4 => ⟨S50000, .f32⟩
  | 5 => ⟨S_, .f32⟩
  | 6 => ⟨S50000, .f32⟩
  | 7 => ⟨S50000, .f32⟩
  | 8 => ⟨S50000, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000, .f32⟩
  | 27 => ⟨S600000, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x64, .f32⟩
  | 37 => ⟨S600000x1, .f32⟩
  | 38 => ⟨S600000x64, .f32⟩
  | 39 => ⟨S600000x64, .f32⟩
  | 40 => ⟨S_, .f32⟩
  | 41 => ⟨S50000x64, .f32⟩
  | 42 => ⟨S600000x1, .i32⟩
  | 43 => ⟨S50000x64, .f32⟩
  | 44 => ⟨S50000, .f32⟩
  | 45 => ⟨S50000x1, .f32⟩
  | 46 => ⟨S50000x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x64, .f32⟩
  | 59 => ⟨S50000x64, .f32⟩
  | 60 => ⟨S50000x64, .f32⟩
  | 61 => ⟨S_, .f32⟩
  | 62 => ⟨S50000, .f32⟩
  | 63 => ⟨S50000x1, .f32⟩
  | 64 => ⟨S50000x1, .f32⟩
  | 65 => ⟨S50000x64, .f32⟩
  | 66 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_cst_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_21 : Ref sig .tc := ⟨.hbm, 137, rfl⟩
abbrev main_v102 : Ref sig .tc := ⟨.hbm, 138, rfl⟩
abbrev main_v103 : Ref sig .tc := ⟨.hbm, 139, rfl⟩
abbrev main_c_22 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_23 : Ref sig .tc := ⟨.hbm, 146, rfl⟩
abbrev main_v109 : Ref sig .tc := ⟨.hbm, 147, rfl⟩
abbrev main_v110 : Ref sig .tc := ⟨.hbm, 148, rfl⟩
abbrev main_c_24 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_25 : Ref sig .tc := ⟨.hbm, 156, rfl⟩
abbrev main_v117 : Ref sig .tc := ⟨.hbm, 157, rfl⟩
abbrev main_v118 : Ref sig .tc := ⟨.hbm, 158, rfl⟩
abbrev main_c_26 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_27 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_call2_cst : Ref sig .tc := ⟨.hbm, 180, rfl⟩
abbrev main_call2_v0 : Ref sig .tc := ⟨.hbm, 181, rfl⟩
abbrev main_call2_cst_0 : Ref sig .tc := ⟨.hbm, 182, rfl⟩
abbrev main_call2_v1 : Ref sig .tc := ⟨.hbm, 183, rfl⟩
abbrev main_call2_v2 : Ref sig .tc := ⟨.hbm, 184, rfl⟩
abbrev main_call2_v3 : Ref sig .tc := ⟨.hbm, 185, rfl⟩
abbrev main_call2_v4 : Ref sig .tc := ⟨.hbm, 186, rfl⟩
abbrev main_call2_v5 : Ref sig .tc := ⟨.hbm, 187, rfl⟩
abbrev main_call2_v6 : Ref sig .tc := ⟨.hbm, 188, rfl⟩
abbrev main_call2_cst_1 : Ref sig .tc := ⟨.hbm, 189, rfl⟩
abbrev main_call2_v7 : Ref sig .tc := ⟨.hbm, 190, rfl⟩
abbrev main_call2_v8 : Ref sig .tc := ⟨.hbm, 191, rfl⟩
abbrev main_call2_v9 : Ref sig .tc := ⟨.hbm, 192, rfl⟩
abbrev main_call2_v10 : Ref sig .tc := ⟨.hbm, 193, rfl⟩
abbrev main_v138 : Ref sig .tc := ⟨.hbm, 194, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

class Facts : Prop extends Facts₀ where

variable [Facts]
-- ==== Proof.KRun.lean ====
/-
  The idealized kernel's run with its result named.

  @main is ten segments: four stretches of host operations and six node-tiled calls. Running them in order from the
  launch memory, every weakly fair execution terminates without a fault, the eight argument arrays end as launched,
  and the result array ends at what the last boundary's contents hold for it: the fold through the ten segments
  read at the result buffer. The statement keeps the generated frame's launch over the segments and reads one more
  buffer out of the last thread state.
-/
import proofs.«134760_j77008763617446_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents of its buffer and the argument arrays end as launched. -/
theorem run_result : θ_run defs (onTc (τ := τ) (main (F := F))) ⟨m, fun _ => 0, ρ⟩ (fun r => ∀ c : Dev nD,
      r.2.mem ((c.tc : Thread nD τ).loc main_v81) = W10 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v81 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Result

end
-- ==== Proof.KKeep.lean ====
/-
  Buffers that pass through segments of the idealized kernel's @main untouched.

  A host stretch rewrites only the buffers its operations write, and a call rewrites only its result array (its
  operand arrays come out as they went in), so a value computed early — the edges' sources and targets, their
  weights, the inverse degrees, the narrowed weight matrices, a layer's product — is still there, unchanged, when a
  later segment reads it. Each statement here walks one buffer back through the boundaries between two segments.
-/
import proofs.«134760_j77008763617446_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem W2_main_v1_from1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem W2_main_v3_from1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem W2_main_v25_from1 (c : Dev nD) : W2 m ρ c (Proc.devRef .tc main_v25) = W1 m ρ c (Proc.devRef .tc main_v25) :=
  calc W2 m ρ c (Proc.devRef .tc main_v25)
    _ = W1 m ρ c (Proc.devRef .tc main_v25) := W2_of_ne m ρ c main_v25 (by decide)

theorem W5_main_v1_from1 (c : Dev nD) : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W5_main_v3_from1 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem W5_main_v25_from1 (c : Dev nD) : W5 m ρ c (Proc.devRef .tc main_v25) = W1 m ρ c (Proc.devRef .tc main_v25) :=
  calc W5 m ρ c (Proc.devRef .tc main_v25)
    _ = W4 m ρ c (Proc.devRef .tc main_v25) := W5_of_ne m ρ c main_v25 (by decide)
    _ = W3 m ρ c (Proc.devRef .tc main_v25) := W4_of_ne m ρ c main_v25 (by decide)
    _ = W2 m ρ c (Proc.devRef .tc main_v25) := StableHlo.after_of_forall_not_mem (b := Proc.devRef .tc main_v25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v25) := W2_of_ne m ρ c main_v25 (by decide)

theorem W8_main_v1_from1 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := W7_of_ne m ρ c main_v1 (by decide)
    _ = W5 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W8_main_v3_from1 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem W8_main_v25_from1 (c : Dev nD) : W8 m ρ c (Proc.devRef .tc main_v25) = W1 m ρ c (Proc.devRef .tc main_v25) :=
  calc W8 m ρ c (Proc.devRef .tc main_v25)
    _ = W7 m ρ c (Proc.devRef .tc main_v25) := W8_of_ne m ρ c main_v25 (by decide)
    _ = W6 m ρ c (Proc.devRef .tc main_v25) := W7_of_ne m ρ c main_v25 (by decide)
    _ = W5 m ρ c (Proc.devRef .tc main_v25) := StableHlo.after_of_forall_not_mem (b := Proc.devRef .tc main_v25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v25) := W5_of_ne m ρ c main_v25 (by decide)
    _ = W3 m ρ c (Proc.devRef .tc main_v25) := W4_of_ne m ρ c main_v25 (by decide)
    _ = W2 m ρ c (Proc.devRef .tc main_v25) := StableHlo.after_of_forall_not_mem (b := Proc.devRef .tc main_v25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v25) := W2_of_ne m ρ c main_v25 (by decide)

theorem W3_main_v27_from1 (c : Dev nD) : W3 m ρ c (Proc.devRef .tc main_v27) = W1 m ρ c (Proc.devRef .tc main_v27) :=
  calc W3 m ρ c (Proc.devRef .tc main_v27)
    _ = W2 m ρ c (Proc.devRef .tc main_v27) := StableHlo.after_of_forall_not_mem (b := Proc.devRef .tc main_v27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v27) := W2_of_ne m ρ c main_v27 (by decide)

theorem W6_main_v27_from1 (c : Dev nD) : W6 m ρ c (Proc.devRef .tc main_v27) = W1 m ρ c (Proc.devRef .tc main_v27) :=
  calc W6 m ρ c (Proc.devRef .tc main_v27)
    _ = W5 m ρ c (Proc.devRef .tc main_v27) := StableHlo.after_of_forall_not_mem (b := Proc.devRef .tc main_v27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v27) := W5_of_ne m ρ c main_v27 (by decide)
    _ = W3 m ρ c (Proc.devRef .tc main_v27) := (W4_arr m ρ c 2).trans (((dat1 (V3 m ρ) c).arrAt_in 2 rfl _).trans (A_eq1 (V3 m ρ) c 2))
    _ = W2 m ρ c (Proc.devRef .tc main_v27) := StableHlo.after_of_forall_not_mem (b := Proc.devRef .tc main_v27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v27) := W2_of_ne m ρ c main_v27 (by decide)

theorem W9_main_v27_from1 (c : Dev nD) : W9 m ρ c (Proc.devRef .tc main_v27) = W1 m ρ c (Proc.devRef .tc main_v27) :=
  calc W9 m ρ c (Proc.devRef .tc main_v27)
    _ = W8 m ρ c (Proc.devRef .tc main_v27) := StableHlo.after_of_forall_not_mem (b := Proc.devRef .tc main_v27) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v27) := W8_of_ne m ρ c main_v27 (by decide)
    _ = W6 m ρ c (Proc.devRef .tc main_v27) := (W7_arr m ρ c 2).trans (((dat3 (V6 m ρ) c).arrAt_in 2 rfl _).trans (A_eq3 (V6 m ρ) c 2))
    _ = W5 m ρ c (Proc.devRef .tc main_v27) := StableHlo.after_of_forall_not_mem (b := Proc.devRef .tc main_v27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v27) := W5_of_ne m ρ c main_v27 (by decide)
    _ = W3 m ρ c (Proc.devRef .tc main_v27) := (W4_arr m ρ c 2).trans (((dat1 (V3 m ρ) c).arrAt_in 2 rfl _).trans (A_eq1 (V3 m ρ) c 2))
    _ = W2 m ρ c (Proc.devRef .tc main_v27) := StableHlo.after_of_forall_not_mem (b := Proc.devRef .tc main_v27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v27) := W2_of_ne m ρ c main_v27 (by decide)

theorem W4_main_v29_from1 (c : Dev nD) : W4 m ρ c (Proc.devRef .tc main_v29) = W1 m ρ c (Proc.devRef .tc main_v29) :=
  calc W4 m ρ c (Proc.devRef .tc main_v29)
    _ = W3 m ρ c (Proc.devRef .tc main_v29) := W4_of_ne m ρ c main_v29 (by decide)
    _ = W2 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v29) := W2_of_ne m ρ c main_v29 (by decide)

theorem W7_main_v30_from1 (c : Dev nD) : W7 m ρ c (Proc.devRef .tc main_v30) = W1 m ρ c (Proc.devRef .tc main_v30) :=
  calc W7 m ρ c (Proc.devRef .tc main_v30)
    _ = W6 m ρ c (Proc.devRef .tc main_v30) := W7_of_ne m ρ c main_v30 (by decide)
    _ = W5 m ρ c (Proc.devRef .tc main_v30) := StableHlo.after_of_forall_not_mem (b := Proc.devRef .tc main_v30) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v30) := W5_of_ne m ρ c main_v30 (by decide)
    _ = W3 m ρ c (Proc.devRef .tc main_v30) := W4_of_ne m ρ c main_v30 (by decide)
    _ = W2 m ρ c (Proc.devRef .tc main_v30) := StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v30) := W2_of_ne m ρ c main_v30 (by decide)

theorem W1_main_arg0_from0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg1_from0 (c : Dev nD) : W1 m ρ c (Proc.devRef .tc main_arg1) = W0 m ρ c (Proc.devRef .tc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg3_from0 (c : Dev nD) : W1 m ρ c (Proc.devRef .tc main_arg3) = W0 m ρ c (Proc.devRef .tc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg5_from0 (c : Dev nD) : W1 m ρ c (Proc.devRef .tc main_arg5) = W0 m ρ c (Proc.devRef .tc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg7_from0 (c : Dev nD) : W1 m ρ c (Proc.devRef .tc main_arg7) = W0 m ρ c (Proc.devRef .tc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_main_arg2_from0 (c : Dev nD) : W2 m ρ c (Proc.devRef .tc main_arg2) = W0 m ρ c (Proc.devRef .tc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_main_arg4_from0 (c : Dev nD) : W5 m ρ c (Proc.devRef .tc main_arg4) = W0 m ρ c (Proc.devRef .tc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W8_main_arg6_from0 (c : Dev nD) : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W3_main_v31_from2 (c : Dev nD) : W3 m ρ c (Proc.devRef .tc main_v31) = W2 m ρ c (Proc.devRef .tc main_v31) :=
  calc W3 m ρ c (Proc.devRef .tc main_v31)
    _ = W2 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W6_main_v48_from5 (c : Dev nD) : W6 m ρ c (Proc.devRef .tc main_v48) = W5 m ρ c (Proc.devRef .tc main_v48) :=
  calc W6 m ρ c (Proc.devRef .tc main_v48)
    _ = W5 m ρ c (Proc.devRef .tc main_v48) := StableHlo.after_of_forall_not_mem (b := Proc.devRef .tc main_v48) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W9_main_v65_from8 (c : Dev nD) : W9 m ρ c (Proc.devRef .tc main_v65) = W8 m ρ c (Proc.devRef .tc main_v65) :=
  calc W9 m ρ c (Proc.devRef .tc main_v65)
    _ = W8 m ρ c (Proc.devRef .tc main_v65) := StableHlo.after_of_forall_not_mem (b := Proc.devRef .tc main_v65) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keep

end
-- ==== Proof.Spec.lean ====
/-
  The graph convolution's dense steps as functions of whole arrays, on the extended reals.

  A layer of the network takes node features h : [n, K], multiplies them by a weight matrix (`lin`), gathers
  and sums the products along the edges (left to the host's gather and scatter, which both programs apply to the
  same operands), and then, node by node, adds the node's own product scaled by its inverse degree and a bias
  (`pre`), followed by a rectifier (`relu`) or, in the last layer, by the logarithm of the softmax along the
  row (`logSoftmax`). The inverse degrees arrive as a column [n, 1] and the bias as a row [1, d].
-/
import Idealize.ShloMosaic.PureOps.Ideal
import Idealize.ShloMosaic.Lib.ValueIdx

noncomputable section

open scoped BigOperators

namespace Cert.GCN

open Idealize.ShloMosaic Idealize.ShloMosaic.ValueIdx

/-- A matrix of extended reals with `n` rows and `k` columns. -/
abbrev Mat (n k : ℕ) : Type := (⟨2, ![n, k]⟩ : Shape).Idx → EReal

/-- The product of an [n, K] matrix with a [K, d] matrix: entry (r, c) is ∑ k, x (r, k) · w (k, c). -/
def lin {n K d : ℕ} (x : Mat n K) (w : Mat K d) : Mat n d :=
  fun i => ∑ k : Fin K, x (ix2 (i 0) k) * w (ix2 k (i 1))

/-- A node's value before the activation: the sum over its incoming edges, plus its own product scaled by its
    inverse degree, plus the bias of the column. -/
def pre {n d : ℕ} (agg h : Mat n d) (dinv2 : Mat n 1) (b : Mat 1 d) : Mat n d :=
  fun i => agg i + h i * dinv2 (ix2 (i 0) (0 : Fin 1)) + b (ix2 (0 : Fin 1) (i 1))

/-- The rectified layer: the larger of the node's value and zero. -/
def relu {n d : ℕ} (agg h : Mat n d) (dinv2 : Mat n 1) (b : Mat 1 d) : Mat n d :=
  fun i => max (pre agg h dinv2 b i) (Ideal.ofBits .f32 0x00000000#32)

/-- The largest entry of row `r`, as the fold of max from the least float. -/
def rowMax {n d : ℕ} (z : Mat n d) (r : Fin n) : EReal :=
  (Finset.univ : Finset (Fin d)).fold max (Ideal.ofBits .f32 0xFF800000#32) (fun c => z (ix2 r c))

/-- The last layer: each entry less its row's maximum, less the logarithm of the row's sum of exponentials of
    those differences. -/
def logSoftmax {n d : ℕ} (agg h : Mat n d) (dinv2 : Mat n 1) (b : Mat 1 d) : Mat n d :=
  fun i => (pre agg h dinv2 b i - rowMax (pre agg h dinv2 b) (i 0))
    - Ideal.log (∑ c : Fin d, Ideal.exp (pre agg h dinv2 b (ix2 (i 0) c) - rowMax (pre agg h dinv2 b) (i 0)))

end Cert.GCN

end
-- ==== Proof.Graph.lean ====
/-
  The graph side of a layer, as functions of whole arrays: what the host's operations compute from the edge list.

  The edge list is a [2, E] array of node numbers: row 0 the sources, row 1 the targets. A node's degree is one
  (its self-loop) plus the number of edges that end at it, counted by adding a one into a zero vector at every
  target; its inverse square root is taken entrywise. An edge's weight is the product of that quantity at its
  source and at its target, each read through a gather whose indices are first normalised (a negative index is
  moved up by the number of nodes). A layer's aggregation gathers the rows of a feature matrix at the sources,
  scales each gathered row by the edge's weight, and adds the rows into a zero matrix at the targets. Gather
  and scatter are left as the host's own operations: both programs apply them to the same operands.
-/
import proofs.«134760_j77008763617446_2_alg».proof.Proof.Gen.KernelIdeal
import Idealize.ShloMosaic.PureOps.Ideal

noncomputable section

namespace Cert.KernelIdeal.Graph

open Cert.KernelIdeal Cert.KernelIdeal.Facts₀ Cert.KernelIdeal.Facts Idealize.ShloMosaic

/-- The edges' sources: row 0 of the edge list. -/
def srcOf (e : IVec S2x600000 32) : IVec S600000 32 :=
  shapeCast S600000 (extractStridedSlice S1x600000 ![0, 0] e slices_S2x600000_S1x600000_0_0) shapeCasts_S1x600000_S600000

/-- The edges' targets: row 1 of the edge list. -/
def dstOf (e : IVec S2x600000 32) : IVec S600000 32 :=
  shapeCast S600000 (extractStridedSlice S1x600000 ![1, 0] e slices_S2x600000_S1x600000_1_0) shapeCasts_S1x600000_S600000

/-- Gather indices from node numbers: a negative number is moved up by the number of nodes, and the vector is
    stood up as a column of one-entry index vectors. -/
def wrap (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- Scatter indices from node numbers: the vector stood up as a column of one-entry index vectors. -/
def col (s : IVec S600000 32) : IVec S600000x1 32 :=
  broadcastInDim S600000x1 ![0] bcast_S600000_S600000x1_0 s

/-- The inverse square root of each node's degree: one plus the number of edges ending at the node. -/
def dinvOf (dst : IVec S600000 32) : FVec Ideal S50000 .f32 :=
  Host.rsqrt (addf
    (Host.scatterAdd scatter_S50000_S600000x1_S600000_n_0_0_1
      (broadcastInDim S50000 ![] bcast_S_S50000 (constant S_ .f32 0x00000000#32)) (col dst)
      (broadcastInDim S600000 ![] bcast_S_S600000 (constant S_ .f32 0x3F800000#32)))
    (broadcastInDim S50000 ![] bcast_S_S50000 (constant S_ .f32 0x3F800000#32)))

/-- An edge's weight: the inverse root degree at its source times that at its target. -/
def normOf (src dst : IVec S600000 32) : FVec Ideal S600000 .f32 :=
  mulf (Host.gather gather_S50000_S600000x1_S600000_n_0_n_n_0_1_1 (dinvOf dst) (wrap src))
    (Host.gather gather_S50000_S600000x1_S600000_n_0_n_n_0_1_1 (dinvOf dst) (wrap dst))

/-- A node's inverse degree. -/
def dinv2Of (dst : IVec S600000 32) : FVec Ideal S50000 .f32 :=
  mulf (dinvOf dst) (dinvOf dst)

/-- A layer's aggregation over 128 features: the rows of `h` at the sources, scaled by the edges' weights,
    added at the targets. -/
def agg128 (h : FVec Ideal S50000x128 .f32) (src dst : IVec S600000 32) (norm : FVec Ideal S600000 .f32) :
    FVec Ideal S50000x128 .f32 :=
  Host.scatterAdd scatter_S50000x128_S600000x1_S600000x128_1_0_0_1
    (broadcastInDim S50000x128 ![] bcast_S_S50000x128 (constant S_ .f32 0x00000000#32)) (col dst)
    (mulf (Host.gather gather_S50000x128_S600000x1_S600000x128_1_0_n_n_0_1_1128 h (wrap src))
      (broadcastInDim S600000x128 ![0, 1] bcast_S600000x1_S600000x128_0_1
        (broadcastInDim S600000x1 ![0] bcast_S600000_S600000x1_0 norm)))

/-- The same over 64 features. -/
def agg64 (h : FVec Ideal S50000x64 .f32) (src dst : IVec S600000 32) (norm : FVec Ideal S600000 .f32) :
    FVec Ideal S50000x64 .f32 :=
  Host.scatterAdd scatter_S50000x64_S600000x1_S600000x64_1_0_0_1
    (broadcastInDim S50000x64 ![] bcast_S_S50000x64 (constant S_ .f32 0x00000000#32)) (col dst)
    (mulf (Host.gather gather_S50000x64_S600000x1_S600000x64_1_0_n_n_0_1_164 h (wrap src))
      (broadcastInDim S600000x64 ![0, 1] bcast_S600000x1_S600000x64_0_1
        (broadcastInDim S600000x1 ![0] bcast_S600000_S600000x1_0 norm)))

/-- The aggregation as the kernel's host stretch writes it: the gathered rows are widened from the 16-bit format
    before they are scaled. -/
def agg128K (h : FVec Ideal S50000x128 .bf16) (src dst : IVec S600000 32) (norm : FVec Ideal S600000 .f32) :
    FVec Ideal S50000x128 .f32 :=
  Host.scatterAdd scatter_S50000x128_S600000x1_S600000x128_1_0_0_1
    (broadcastInDim S50000x128 ![] bcast_S_S50000x128 (constant S_ .f32 0x00000000#32)) (col dst)
    (mulf (extf .f32 (Host.gather gather_S50000x128_S600000x1_S600000x128_1_0_n_n_0_1_1128 h (wrap src)) bitsLt_bf16_f32)
      (broadcastInDim S600000x128 ![0, 1] bcast_S600000x1_S600000x128_0_1
        (broadcastInDim S600000x1 ![0] bcast_S600000_S600000x1_0 norm)))

/-- The same over 64 features. -/
def agg64K (h : FVec Ideal S50000x64 .bf16) (src dst : IVec S600000 32) (norm : FVec Ideal S600000 .f32) :
    FVec Ideal S50000x64 .f32 :=
  Host.scatterAdd scatter_S50000x64_S600000x1_S600000x64_1_0_0_1
    (broadcastInDim S50000x64 ![] bcast_S_S50000x64 (constant S_ .f32 0x00000000#32)) (col dst)
    (mulf (extf .f32 (Host.gather gather_S50000x64_S600000x1_S600000x64_1_0_n_n_0_1_164 h (wrap src)) bitsLt_bf16_f32)
      (broadcastInDim S600000x64 ![0, 1] bcast_S600000x1_S600000x64_0_1
        (broadcastInDim S600000x1 ![0] bcast_S600000_S600000x1_0 norm)))

/-- On the extended reals widening a vector from the 16-bit format is the identity. -/
theorem extf_id {s : Shape} (v : FVec Ideal s .bf16) (h : FTy.bf16.bits < FTy.f32.bits) : (extf .f32 v h : FVec Ideal s .f32) = v :=
  funext fun _ => rfl

theorem agg128K_eq (h : FVec Ideal S50000x128 .bf16) (src dst : IVec S600000 32) (norm : FVec Ideal S600000 .f32) :
    agg128K h src dst norm = agg128 h src dst norm := by
  unfold agg128K agg128
  rw [extf_id]

theorem agg64K_eq (h : FVec Ideal S50000x64 .bf16) (src dst : IVec S600000 32) (norm : FVec Ideal S600000 .f32) :
    agg64K h src dst norm = agg64 h src dst norm := by
  unfold agg64K agg64
  rw [extf_id]

end Cert.KernelIdeal.Graph

end
-- ==== Proof.Net.lean ====
/-
  The whole network as one function of its eight arguments, on the extended reals.

  Three graph convolutions over one edge list: the first two rectified, the last followed by the logarithm of the
  softmax along each row. The edges' sources, targets and weights and the nodes' inverse degrees depend on the edge
  list alone and are shared by the three layers; the inverse degrees enter a layer as a column and the bias as a row.
-/
import proofs.«134760_j77008763617446_2_alg».proof.Proof.Spec
import proofs.«134760_j77008763617446_2_alg».proof.Proof.Graph

noncomputable section

namespace Cert.GCN

open Cert.KernelIdeal Cert.KernelIdeal.Facts₀ Cert.KernelIdeal.Facts Cert.KernelIdeal.Graph Idealize.ShloMosaic

/-- The nodes' inverse degrees as a column. -/
def dinv2Col (e : IVec S2x600000 32) : FVec Ideal S50000x1 .f32 :=
  shapeCast S50000x1 (dinv2Of (dstOf e)) shapeCasts_S50000_S50000x1

/-- A rectified layer over 128 features. -/
def hidden (x : FVec Ideal S50000x128 .f32) (w : FVec Ideal S128x128 .f32) (b : FVec Ideal S128 .f32)
    (e : IVec S2x600000 32) : FVec Ideal S50000x128 .f32 :=
  relu (n := 50000) (d := 128)
    (agg128 (lin (n := 50000) (K := 128) (d := 128) x w) (srcOf e) (dstOf e) (normOf (srcOf e) (dstOf e)))
    (lin (n := 50000) (K := 128) (d := 128) x w) (dinv2Col e) (shapeCast S1x128 b shapeCasts_S128_S1x128)

/-- The last layer, over 64 features, with the logarithm of the softmax along each row. -/
def final (x : FVec Ideal S50000x128 .f32) (w : FVec Ideal S128x64 .f32) (b : FVec Ideal S64 .f32)
    (e : IVec S2x600000 32) : FVec Ideal S50000x64 .f32 :=
  logSoftmax (n := 50000) (d := 64)
    (agg64 (lin (n := 50000) (K := 128) (d := 64) x w) (srcOf e) (dstOf e) (normOf (srcOf e) (dstOf e)))
    (lin (n := 50000) (K := 128) (d := 64) x w) (dinv2Col e) (shapeCast S1x64 b shapeCasts_S64_S1x64)

/-- The network: two rectified layers and the last one. -/
def net (x : FVec Ideal S50000x128 .f32) (w1 : FVec Ideal S128x128 .f32) (b1 : FVec Ideal S128 .f32)
    (w2 : FVec Ideal S128x128 .f32) (b2 : FVec Ideal S128 .f32) (w3 : FVec Ideal S128x64 .f32) (b3 : FVec Ideal S64 .f32)
    (e : IVec S2x600000 32) : FVec Ideal S50000x64 .f32 :=
  final (hidden (hidden x w1 b1 e) w2 b2 e) w3 b3 e

end Cert.GCN

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.Mm0.lean ====
/-
  The node-tiled matrix product of call 0, as one function of whole arrays.

  Each of the 25 grid points multiplies its 2000 rows of the [50000, 128] left operand by the whole
  [128, 128] right operand and writes the 2000 rows of the product back. A row block's entry (p, q) is the
  contraction sum over the 128 shared coordinates, which only reads row p of the block — that is row
  2000·t + p of the array — so the 25 blocks are the restrictions of ONE product of the two arrays, and they
  tile its rows. On the extended reals the changes of float format are the identity.
-/
import proofs.«134760_j77008763617446_2_alg».proof.Proof.Gen.KernelIdeal.Frame
import proofs.«134760_j77008763617446_2_alg».proof.Proof.Spec
import proofs.«134760_j77008763617446_2_alg».proof.Proof.LibContract
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Mm0

open Cert.KernelIdeal Cert.KernelIdeal.Gen Cert.GCN
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The left operand's index at a result index keeps the result's row. -/
theorem lhs_row (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The right operand's index at a result index keeps the result's column. -/
theorem rhs_col (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's stored value at (p, q): the sum over the shared coordinate of row p of the left block times
    column q of the right block. -/
theorem pay_apply (x : Vec Ideal S2000x128 .f32) (w : Vec Ideal S128x128 .bf16) (p : Fin 2000) (q : Fin 128) :
    k0_pay1 x w (ix2 p q) = ∑ k : Fin 128, x (ix2 p k) * w (ix2 k q) := by
  unfold k0_pay1
  refine (Ideal.matmul_constant_zero_apply dot_S2000x128_S128x128_S2000x128_1_0_0_1_n_n none _ _ (ix2 p q)).trans ?_
  refine (Contract2.sum_contr_eq_sum_fin dot_S2000x128_S128x128_S2000x128_1_0_0_1_n_n rfl rfl rfl rfl lhs_row rhs_col _ _ (ix2 p q)).trans ?_
  refine Finset.sum_congr rfl fun k _ => ?_
  simp only [shapeCast_self]
  rfl

/-- The printed index maps over the grid: the row blocks follow the point, the right operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the call finds them. -/
theorem flushed_eq (c : Dev nD) (t : Fin cfg0.N) :
    (dat0 V c).flushed 2 t = ((cfg0.win 2).blk t).view.read (Elt Ideal) (lin (V c main_arg0) (V c main_v28)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  refine (pay_apply (iblk0 V c 0 t) (iblk0 V c 1 t) p q).trans ?_
  show _ = lin (V c main_arg0) (V c main_v28) (((cfg0.win 2).blk t).view.emb (ix2 p q))
  unfold lin
  refine Finset.sum_congr rfl fun k _ => ?_
  have hp : p.val < 2000 := p.isLt
  have hq : q.val < 128 := q.isLt
  have hk : k.val < 128 := k.isLt
  have ht : t.val < 25 := t.isLt
  have hl : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have hr : iblk0 V c 1 t (ix2 k q) = V c main_v28 (ix2 k ((((cfg0.win 2).blk t).view.emb (ix2 p q)) 1)) := by
    show V c main_v28 (((cfg0.win 1).blk t).view.emb (ix2 k q)) = _
    refine congrArg (V c main_v28) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hl, hr]

/-- An index of the result array is in point `t`'s block iff each coordinate is in the block's range. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v31).slice (win0_2.rect t)).set ↔ _
  rw [View.set_slice_whole, Rect.mem_set_unit]
  exact Iff.rfl

/-- Every row of the result is in the block of the point its row number divided by 2000 names. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e0, e1, e2, e3, e4, e5⟩ := idx_facts t
  have e4' : win0_2.index t (0 : Fin 2) = (i 0).val / 2000 := e4
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the call: the product of the left and right arrays as the call finds them. -/
theorem final (c : Dev nD) : (dat0 V c).arrAt 2 cfg0.N = lin (V c main_arg0) (V c main_v28) :=
  (dat0 V c).arrAt_eq_of_cover 2 (lin (V c main_arg0) (V c main_v28)) (fun t _ => flushed_eq V c t) cover

end Cert.KernelIdeal.Mm0

end
-- ==== Proof.Mm2.lean ====
/-
  The node-tiled matrix product of call 2, as one function of whole arrays.

  Each of the 25 grid points multiplies its 2000 rows of the [50000, 128] left operand by the whole
  [128, 128] right operand and writes the 2000 rows of the product back. A row block's entry (p, q) is the
  contraction sum over the 128 shared coordinates, which only reads row p of the block — that is row
  2000·t + p of the array — so the 25 blocks are the restrictions of ONE product of the two arrays, and they
  tile its rows. On the extended reals the changes of float format are the identity.
-/
import proofs.«134760_j77008763617446_2_alg».proof.Proof.Gen.KernelIdeal.Frame
import proofs.«134760_j77008763617446_2_alg».proof.Proof.Spec
import proofs.«134760_j77008763617446_2_alg».proof.Proof.LibContract
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Mm2

open Cert.KernelIdeal Cert.KernelIdeal.Gen Cert.GCN
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The left operand's index at a result index keeps the result's row. -/
theorem lhs_row (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The right operand's index at a result index keeps the result's column. -/
theorem rhs_col (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's stored value at (p, q): the sum over the shared coordinate of row p of the left block times
    column q of the right block. -/
theorem pay_apply (x : Vec Ideal S2000x128 .f32) (w : Vec Ideal S128x128 .bf16) (p : Fin 2000) (q : Fin 128) :
    k2_pay1 x w (ix2 p q) = ∑ k : Fin 128, x (ix2 p k) * w (ix2 k q) := by
  unfold k2_pay1
  refine (Ideal.matmul_constant_zero_apply dot_S2000x128_S128x128_S2000x128_1_0_0_1_n_n none _ _ (ix2 p q)).trans ?_
  refine (Contract2.sum_contr_eq_sum_fin dot_S2000x128_S128x128_S2000x128_1_0_0_1_n_n rfl rfl rfl rfl lhs_row rhs_col _ _ (ix2 p q)).trans ?_
  refine Finset.sum_congr rfl fun k _ => ?_
  simp only [shapeCast_self]
  rfl

/-- The printed index maps over the grid: the row blocks follow the point, the right operand stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the call finds them. -/
theorem flushed_eq (c : Dev nD) (t : Fin cfg2.N) :
    (dat2 V c).flushed 2 t = ((cfg2.win 2).blk t).view.read (Elt Ideal) (lin (V c main_v47) (V c main_v29)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  refine (pay_apply (iblk2 V c 0 t) (iblk2 V c 1 t) p q).trans ?_
  show _ = lin (V c main_v47) (V c main_v29) (((cfg2.win 2).blk t).view.emb (ix2 p q))
  unfold lin
  refine Finset.sum_congr rfl fun k _ => ?_
  have hp : p.val < 2000 := p.isLt
  have hq : q.val < 128 := q.isLt
  have hk : k.val < 128 := k.isLt
  have ht : t.val < 25 := t.isLt
  have hl : iblk2 V c 0 t (ix2 p k) = V c main_v47 (ix2 ((((cfg2.win 2).blk t).view.emb (ix2 p q)) 0) k) := by
    show V c main_v47 (((cfg2.win 0).blk t).view.emb (ix2 p k)) = _
    refine congrArg (V c main_v47) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have hr : iblk2 V c 1 t (ix2 k q) = V c main_v29 (ix2 k ((((cfg2.win 2).blk t).view.emb (ix2 p q)) 1)) := by
    show V c main_v29 (((cfg2.win 1).blk t).view.emb (ix2 k q)) = _
    refine congrArg (V c main_v29) (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [hl, hr]

/-- An index of the result array is in point `t`'s block iff each coordinate is in the block's range. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- Every row of the result is in the block of the point its row number divided by 2000 names. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨e0, e1, e2, e3, e4, e5⟩ := idx_facts t
  have e4' : win2_2.index t (0 : Fin 2) = (i 0).val / 2000 := e4
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The result array after the call: the product of the left and right arrays as the call finds them. -/
theorem final (c : Dev nD) : (dat2 V c).arrAt 2 cfg2.N = lin (V c main_v47) (V c main_v29) :=
  (dat2 V c).arrAt_eq_of_cover 2 (lin (V c main_v47) (V c main_v29)) (fun t _ => flushed_eq V c t) cover

end Cert.KernelIdeal.Mm2

end
-- ==== Proof.Mm4.lean ====
/-
  The node-tiled matrix product of call 4, as one function of whole arrays.

  Each of the 25 grid points multiplies its 2000 rows of the [50000, 128] left operand by the whole
  [128, 64] right operand and writes the 2000 rows of the product back. A row block's entry (p, q) is the
  contraction sum over the 128 shared coordinates, which only reads row p of the block — that is row
  2000·t + p of the array — so the 25 blocks are the restrictions of ONE product of the two arrays, and they
  tile its rows. On the extended reals the changes of float format are the identity.
-/
import proofs.«134760_j77008763617446_2_alg».proof.Proof.Gen.KernelIdeal.Frame
import proofs.«134760_j77008763617446_2_alg».proof.Proof.Spec
import proofs.«134760_j77008763617446_2_alg».proof.Proof.LibContract
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Mm4

open Cert.KernelIdeal Cert.KernelIdeal.Gen Cert.GCN
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The left operand's index at a result index keeps the result's row. -/
theorem lhs_row (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl

/-- The right operand's index at a result index keeps the result's column. -/
theorem rhs_col (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's stored value at (p, q): the sum over the shared coordinate of row p of the left block times
    column q of the right block. -/
theorem pay_apply (x : Vec Ideal S2000x128 .f32) (w : Vec Ideal S128x64 .bf16) (p : Fin 2000) (q : Fin 64) :
    k4_pay1 x w (ix2 p q) = ∑ k : Fin 128, x (ix2 p k) * w (ix2 k q) := by
  unfold k4_pay1
  refine (Ideal.matmul_constant_zero_apply dot_S2000x128_S128x64_S2000x64_1_0_0_1_n_n none _ _ (ix2 p q)).trans ?_
  refine (Contract2.sum_contr_eq_sum_fin dot_S2000x128_S128x64_S2000x64_1_0_0_1_n_n rfl rfl rfl rfl lhs_row rhs_col _ _ (ix2 p q)).trans ?_
  refine Finset.sum_congr rfl fun k _ => ?_
  simp only [shapeCast_self]
  rfl

/-- The printed index maps over the grid: the row blocks follow the point, the right operand stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the two arrays as the call finds them. -/
theorem flushed_eq (c : Dev nD) (t : Fin cfg4.N) :
    (dat4 V c).flushed 2 t = ((cfg4.win 2).blk t).view.read (Elt Ideal) (lin (V c main_v64) (V c main_v30)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x64) hz]
  obtain ⟨e0, e1, e2, e3, e4, e5⟩ := idx_facts t
  funext j
  obtain ⟨p, q, rfl⟩ : ∃ (p : Fin 2000) (q : Fin 64), j = ix2 p q := ⟨j 0, j 1, eq_ix2 j⟩
  refine (pay_apply (iblk4 V c 0 t) (iblk4 V c 1 t) p q).trans ?_
  show _ = lin (V c main_v64) (V c main_v30) (((cfg4.win 2).blk t).view.emb (ix2 p q))
  unfold lin
  refine Finset.sum_congr rfl fun k _ => ?_
  have hp : p.val < 2000 := p.isLt
  have hq : q.val < 64 := q.isLt
  have hk : k.val < 128 := k.isLt
  have ht : t.val < 25 := t.isLt
  have hl : iblk4 V c 0 t (ix2 p k) = V c main_v64 (ix2 ((((cfg4.win 2).blk t).view.emb (ix2 p q)) 0) k) := by
    show V c main_v64 (((cfg4.win 0).blk t).view.emb (ix2 p k)) = _
    refine congrArg (V c main_v64) (funext fun a => Fin.ext ?_)
    match a with
    | ⟨0, _⟩ => show win4_0.index t (0 : Fin 2) * 2000 + 1 * p.val = win4_2.index t (0 : Fin 2) * 2000 + 1 * p.val; omega
    | ⟨1, _⟩ => show win4_0.index t (1 : Fin 2) * 128 + 1 * k.val = k.val; omega
  have hr : iblk4 V c 1 t (ix2 k q) = V c main_v30 (ix2 k ((((cfg4.win 2).blk t).view.emb (ix2 p q)) 1)) := by
    show V c main_v30 (((cfg4.win 1).blk t).view.emb (ix2 k q)) = _
    refine congrArg (V c main_v30) (funext fun a => Fin.ext ?_)
    match a with
    | ⟨0, _⟩ => show win4_1.index t (0 : Fin 2) * 128 + 1 * k.val = k.val; omega
    | ⟨1, _⟩ => show win4_1.index t (1 : Fin 2) * 64 + 1 * q.val = win4_2.index t (1 : Fin 2) * 64 + 1 * q.val; omega
  rw [hl, hr]

/-- An index of the result array is in point `t`'s block iff each coordinate is in the block's range. -/
theorem mem_blk (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v65).slice (win4_2.rect t)).set ↔ _
  rw [View.set_slice_whole, Rect.mem_set_unit]
  exact Iff.rfl

/-- Every row of the result is in the block of the point its row number divided by 2000 names. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 25 := N_4
  let t : Fin cfg4.N := ⟨(i 0).val / 2000, by rw [hN]; omega⟩
  obtain ⟨e0, e1, e2, e3, e4, e5⟩ := idx_facts t
  have e4' : win4_2.index t (0 : Fin 2) = (i 0).val / 2000 := e4
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 64 ≤ (i 1).val ∧ (i 1).val < win4_2.index t (1 : Fin 2) * 64 + 64; omega

/-- The result array after the call: the product of the left and right arrays as the call finds them. -/
theorem final (c : Dev nD) : (dat4 V c).arrAt 2 cfg4.N = lin (V c main_v64) (V c main_v30) :=
  (dat4 V c).arrAt_eq_of_cover 2 (lin (V c main_v64) (V c main_v30)) (fun t _ => flushed_eq V c t) cover

end Cert.KernelIdeal.Mm4

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Ep1.lean ====
/-
  The node-tiled epilogue of call 1, as one function of whole arrays.

  Each of the 25 grid points takes its 2000 rows of the aggregated array, of the product array and of the
  inverse-degree column, and the whole bias row, and writes 2000 rows of the layer's output back. Every entry
  of a block depends only on the same row of the blocks — the rectifier is entrywise —, and row p
  of block t is row 2000·t + p of the arrays, so the 25 blocks are the restrictions of ONE function of the four
  arrays, and they tile its rows. On the extended reals the change of float format is the identity.
-/
import proofs.«134760_j77008763617446_2_alg».proof.Proof.Gen.KernelIdeal.Frame
import proofs.«134760_j77008763617446_2_alg».proof.Proof.Spec
import proofs.«134760_j77008763617446_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Ep1

open Cert.KernelIdeal Cert.KernelIdeal.Gen Cert.GCN
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the rectifier of the block's pre-activation there. -/
theorem pay_apply (h : Vec Ideal S2000x128 .bf16) (g : Vec Ideal S2000x128 .f32) (dd : Vec Ideal S2000x1 .f32) (b : Vec Ideal S1x128 .f32)
    (p : Fin 2000) (q : Fin 128) :
    k1_pay1 h g dd b (ix2 p q) = max (g (ix2 p q) + h (ix2 p q) * dd (ix2 p (0 : Fin 1)) + b (ix2 (0 : Fin 1) q)) (Ideal.ofBits .f32 0x00000000#32) := by
  unfold k1_pay1
  simp only [shapeCast_self]
  refine congrArg₂ max (congrArg₂ (· + ·) (congrArg₂ (· + ·) rfl (congrArg₂ (· * ·) rfl ?_)) ?_) rfl
  · exact broadcastTo_a1_ab_apply dd _ p q
  · exact broadcastTo_1b_ab_apply b _ p q

/-- Against whole arrays: when row p of the blocks is row r of the arrays, the stored value is the layer's at (r, q). -/
theorem pay_eq (h : Vec Ideal S2000x128 .bf16) (g : Vec Ideal S2000x128 .f32) (dd : Vec Ideal S2000x1 .f32) (b : Vec Ideal S1x128 .f32)
    (AGG H : Mat 50000 128) (D2 : Mat 50000 1) (B : Mat 1 128) (r : Fin 50000) (p : Fin 2000) (q : Fin 128)
    (hg : ∀ c, g (ix2 p c) = AGG (ix2 r c)) (hh : ∀ c, h (ix2 p c) = H (ix2 r c))
    (hd : dd (ix2 p (0 : Fin 1)) = D2 (ix2 r (0 : Fin 1))) (hb : ∀ c, b (ix2 (0 : Fin 1) c) = B (ix2 (0 : Fin 1) c)) :
    k1_pay1 h g dd b (ix2 p q) = relu AGG H D2 B (ix2 r q) := by
  rw [pay_apply, hg, hh, hd, hb]
  rfl

/-- The printed index maps over the grid: the row blocks follow the point, the bias row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the layer's function of the four arrays as the call finds them. -/
theorem flushed_eq (c : Dev nD) (t : Fin cfg1.N) :
    (dat1 V c).flushed 4 t = ((cfg1.win 4).blk t).view.read (Elt Ideal)
      (relu (V c main_v45) (V c main_v31) (V c main_v27) (V c main_v46)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  obtain ⟨e0, e1, e2, e3, e4, e5, e6, e7, e8, e9⟩ := idx_facts t
  funext j
  obtain ⟨p, q, rfl⟩ : ∃ (p : Fin 2000) (q : Fin 128), j = ix2 p q := ⟨j 0, j 1, eq_ix2 j⟩
  have hp : p.val < 2000 := p.isLt
  have hq : q.val < 128 := q.isLt
  have ht : t.val < 25 := t.isLt
  have he : ((cfg1.win 4).blk t).view.emb (ix2 p q) = ix2 (⟨t.val * 2000 + p.val, by omega⟩ : Fin 50000) q := by
    funext a; apply Fin.ext
    match a with
    | ⟨0, _⟩ => show win1_4.index t (0 : Fin 2) * 2000 + 1 * p.val = t.val * 2000 + p.val; omega
    | ⟨1, _⟩ => show win1_4.index t (1 : Fin 2) * 128 + 1 * q.val = q.val; omega
  show k1_pay1 (iblk1 V c 1 t) (iblk1 V c 0 t) (iblk1 V c 2 t) (iblk1 V c 3 t) (ix2 p q)
    = relu (V c main_v45) (V c main_v31) (V c main_v27) (V c main_v46) (((cfg1.win 4).blk t).view.emb (ix2 p q))
  rw [he]
  refine pay_eq (iblk1 V c 1 t) (iblk1 V c 0 t) (iblk1 V c 2 t) (iblk1 V c 3 t)
    (V c main_v45) (V c main_v31) (V c main_v27) (V c main_v46) ⟨t.val * 2000 + p.val, by omega⟩ p q (fun c' => ?_) (fun c' => ?_) ?_ (fun c' => ?_)
  · show V c main_v45 (((cfg1.win 0).blk t).view.emb (ix2 p c')) = _
    refine congrArg (V c main_v45) (funext fun a => Fin.ext ?_)
    have hc : c'.val < 128 := c'.isLt
    match a with
    | ⟨0, _⟩ => show win1_0.index t (0 : Fin 2) * 2000 + 1 * p.val = t.val * 2000 + p.val; omega
    | ⟨1, _⟩ => show win1_0.index t (1 : Fin 2) * 128 + 1 * c'.val = c'.val; omega
  · show V c main_v31 (((cfg1.win 1).blk t).view.emb (ix2 p c')) = _
    refine congrArg (V c main_v31) (funext fun a => Fin.ext ?_)
    have hc : c'.val < 128 := c'.isLt
    match a with
    | ⟨0, _⟩ => show win1_1.index t (0 : Fin 2) * 2000 + 1 * p.val = t.val * 2000 + p.val; omega
    | ⟨1, _⟩ => show win1_1.index t (1 : Fin 2) * 128 + 1 * c'.val = c'.val; omega
  · show V c main_v27 (((cfg1.win 2).blk t).view.emb (ix2 p (0 : Fin 1))) = _
    refine congrArg (V c main_v27) (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega
  · show V c main_v46 (((cfg1.win 3).blk t).view.emb (ix2 (0 : Fin 1) c')) = _
    refine congrArg (V c main_v46) (funext fun a => Fin.ext ?_)
    have hc : c'.val < 128 := c'.isLt
    match a with
    | ⟨0, _⟩ => show win1_3.index t (0 : Fin 2) * 1 + 1 * 0 = 0; omega
    | ⟨1, _⟩ => show win1_3.index t (1 : Fin 2) * 128 + 1 * c'.val = c'.val; omega

/-- An index of the result array is in point `t`'s block iff each coordinate is in the block's range. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v47).slice (win1_4.rect t)).set ↔ _
  rw [View.set_slice_whole, Rect.mem_set_unit]
  exact Iff.rfl

/-- Every row of the result is in the block of the point its row number divided by 2000 names. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨e0, e1, e2, e3, e4, e5, e6, e7, e8, e9⟩ := idx_facts t
  have e8' : win1_4.index t (0 : Fin 2) = (i 0).val / 2000 := e8
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- The result array after the call: the layer's function of the four arrays as the call finds them. -/
theorem final (c : Dev nD) : (dat1 V c).arrAt 4 cfg1.N = relu (V c main_v45) (V c main_v31) (V c main_v27) (V c main_v46) :=
  (dat1 V c).arrAt_eq_of_cover 4 (relu (V c main_v45) (V c main_v31) (V c main_v27) (V c main_v46)) (fun t _ => flushed_eq V c t) cover

end Cert.KernelIdeal.Ep1

end
-- ==== Proof.Ep3.lean ====
/-
  The node-tiled epilogue of call 3, as one function of whole arrays.

  Each of the 25 grid points takes its 2000 rows of the aggregated array, of the product array and of the
  inverse-degree column, and the whole bias row, and writes 2000 rows of the layer's output back. Every entry
  of a block depends only on the same row of the blocks — the rectifier is entrywise —, and row p
  of block t is row 2000·t + p of the arrays, so the 25 blocks are the restrictions of ONE function of the four
  arrays, and they tile its rows. On the extended reals the change of float format is the identity.
-/
import proofs.«134760_j77008763617446_2_alg».proof.Proof.Gen.KernelIdeal.Frame
import proofs.«134760_j77008763617446_2_alg».proof.Proof.Spec
import proofs.«134760_j77008763617446_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Ep3

open Cert.KernelIdeal Cert.KernelIdeal.Gen Cert.GCN
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the rectifier of the block's pre-activation there. -/
theorem pay_apply (h : Vec Ideal S2000x128 .bf16) (g : Vec Ideal S2000x128 .f32) (dd : Vec Ideal S2000x1 .f32) (b : Vec Ideal S1x128 .f32)
    (p : Fin 2000) (q : Fin 128) :
    k3_pay1 h g dd b (ix2 p q) = max (g (ix2 p q) + h (ix2 p q) * dd (ix2 p (0 : Fin 1)) + b (ix2 (0 : Fin 1) q)) (Ideal.ofBits .f32 0x00000000#32) := by
  unfold k3_pay1
  simp only [shapeCast_self]
  refine congrArg₂ max (congrArg₂ (· + ·) (congrArg₂ (· + ·) rfl (congrArg₂ (· * ·) rfl ?_)) ?_) rfl
  · exact broadcastTo_a1_ab_apply dd _ p q
  · exact broadcastTo_1b_ab_apply b _ p q

/-- Against whole arrays: when row p of the blocks is row r of the arrays, the stored value is the layer's at (r, q). -/
theorem pay_eq (h : Vec Ideal S2000x128 .bf16) (g : Vec Ideal S2000x128 .f32) (dd : Vec Ideal S2000x1 .f32) (b : Vec Ideal S1x128 .f32)
    (AGG H : Mat 50000 128) (D2 : Mat 50000 1) (B : Mat 1 128) (r : Fin 50000) (p : Fin 2000) (q : Fin 128)
    (hg : ∀ c, g (ix2 p c) = AGG (ix2 r c)) (hh : ∀ c, h (ix2 p c) = H (ix2 r c))
    (hd : dd (ix2 p (0 : Fin 1)) = D2 (ix2 r (0 : Fin 1))) (hb : ∀ c, b (ix2 (0 : Fin 1) c) = B (ix2 (0 : Fin 1) c)) :
    k3_pay1 h g dd b (ix2 p q) = relu AGG H D2 B (ix2 r q) := by
  rw [pay_apply, hg, hh, hd, hb]
  rfl

/-- The printed index maps over the grid: the row blocks follow the point, the bias row stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the layer's function of the four arrays as the call finds them. -/
theorem flushed_eq (c : Dev nD) (t : Fin cfg3.N) :
    (dat3 V c).flushed 4 t = ((cfg3.win 4).blk t).view.read (Elt Ideal)
      (relu (V c main_v62) (V c main_v48) (V c main_v27) (V c main_v63)) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz, View.ld_unit_zero (S := S1x128) hz]
  obtain ⟨e0, e1, e2, e3, e4, e5, e6, e7, e8, e9⟩ := idx_facts t
  funext j
  obtain ⟨p, q, rfl⟩ : ∃ (p : Fin 2000) (q : Fin 128), j = ix2 p q := ⟨j 0, j 1, eq_ix2 j⟩
  have hp : p.val < 2000 := p.isLt
  have hq : q.val < 128 := q.isLt
  have ht : t.val < 25 := t.isLt
  have he : ((cfg3.win 4).blk t).view.emb (ix2 p q) = ix2 (⟨t.val * 2000 + p.val, by omega⟩ : Fin 50000) q := by
    funext a; apply Fin.ext
    match a with
    | ⟨0, _⟩ => show win3_4.index t (0 : Fin 2) * 2000 + 1 * p.val = t.val * 2000 + p.val; omega
    | ⟨1, _⟩ => show win3_4.index t (1 : Fin 2) * 128 + 1 * q.val = q.val; omega
  show k3_pay1 (iblk3 V c 1 t) (iblk3 V c 0 t) (iblk3 V c 2 t) (iblk3 V c 3 t) (ix2 p q)
    = relu (V c main_v62) (V c main_v48) (V c main_v27) (V c main_v63) (((cfg3.win 4).blk t).view.emb (ix2 p q))
  rw [he]
  refine pay_eq (iblk3 V c 1 t) (iblk3 V c 0 t) (iblk3 V c 2 t) (iblk3 V c 3 t)
    (V c main_v62) (V c main_v48) (V c main_v27) (V c main_v63) ⟨t.val * 2000 + p.val, by omega⟩ p q (fun c' => ?_) (fun c' => ?_) ?_ (fun c' => ?_)
  · show V c main_v62 (((cfg3.win 0).blk t).view.emb (ix2 p c')) = _
    refine congrArg (V c main_v62) (funext fun a => Fin.ext ?_)
    have hc : c'.val < 128 := c'.isLt
    match a with
    | ⟨0, _⟩ => show win3_0.index t (0 : Fin 2) * 2000 + 1 * p.val = t.val * 2000 + p.val; omega
    | ⟨1, _⟩ => show win3_0.index t (1 : Fin 2) * 128 + 1 * c'.val = c'.val; omega
  · show V c main_v48 (((cfg3.win 1).blk t).view.emb (ix2 p c')) = _
    refine congrArg (V c main_v48) (funext fun a => Fin.ext ?_)
    have hc : c'.val < 128 := c'.isLt
    match a with
    | ⟨0, _⟩ => show win3_1.index t (0 : Fin 2) * 2000 + 1 * p.val = t.val * 2000 + p.val; omega
    | ⟨1, _⟩ => show win3_1.index t (1 : Fin 2) * 128 + 1 * c'.val = c'.val; omega
  · show V c main_v27 (((cfg3.win 2).blk t).view.emb (ix2 p (0 : Fin 1))) = _
    refine congrArg (V c main_v27) (funext fun a => Fin.ext ?_)
    match a with
    | ⟨0, _⟩ => show win3_2.index t (0 : Fin 2) * 2000 + 1 * p.val = t.val * 2000 + p.val; omega
    | ⟨1, _⟩ => show win3_2.index t (1 : Fin 2) * 1 + 1 * 0 = 0; omega
  · show V c main_v63 (((cfg3.win 3).blk t).view.emb (ix2 (0 : Fin 1) c')) = _
    refine congrArg (V c main_v63) (funext fun a => Fin.ext ?_)
    have hc : c'.val < 128 := c'.isLt
    match a with
    | ⟨0, _⟩ => show win3_3.index t (0 : Fin 2) * 1 + 1 * 0 = 0; omega
    | ⟨1, _⟩ => show win3_3.index t (1 : Fin 2) * 128 + 1 * c'.val = c'.val; omega

/-- An index of the result array is in point `t`'s block iff each coordinate is in the block's range. -/
theorem mem_blk (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v64).slice (win3_4.rect t)).set ↔ _
  rw [View.set_slice_whole, Rect.mem_set_unit]
  exact Iff.rfl

/-- Every row of the result is in the block of the point its row number divided by 2000 names. -/
theorem cover (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨e0, e1, e2, e3, e4, e5, e6, e7, e8, e9⟩ := idx_facts t
  have e8' : win3_4.index t (0 : Fin 2) = (i 0).val / 2000 := e8
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- The result array after the call: the layer's function of the four arrays as the call finds them. -/
theorem final (c : Dev nD) : (dat3 V c).arrAt 4 cfg3.N = relu (V c main_v62) (V c main_v48) (V c main_v27) (V c main_v63) :=
  (dat3 V c).arrAt_eq_of_cover 4 (relu (V c main_v62) (V c main_v48) (V c main_v27) (V c main_v63)) (fun t _ => flushed_eq V c t) cover

end Cert.KernelIdeal.Ep3

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.Ep5.lean ====
/-
  The node-tiled epilogue of call 5, as one function of whole arrays.

  Each of the 25 grid points takes its 2000 rows of the aggregated array, of the product array and of the
  inverse-degree column, and the whole bias row, and writes 2000 rows of the layer's output back. Every entry
  of a block depends only on the same row of the blocks — the maximum and the sum of the softmax run along the row —, and row p
  of block t is row 2000·t + p of the arrays, so the 25 blocks are the restrictions of ONE function of the four
  arrays, and they tile its rows. On the extended reals the change of float format is the identity.
-/
import proofs.«134760_j77008763617446_2_alg».proof.Proof.Gen.KernelIdeal.Frame
import proofs.«134760_j77008763617446_2_alg».proof.Proof.Spec
import proofs.«134760_j77008763617446_2_alg».proof.Proof.LibGram
import proofs.«134760_j77008763617446_2_alg».proof.Proof.LibRowSum
import proofs.«134760_j77008763617446_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Ep5

open Cert.KernelIdeal Cert.KernelIdeal.Gen Cert.GCN
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block's pre-activation: the aggregated block plus the product block scaled by the inverse degrees plus the bias row. -/
def zblk (h : Vec Ideal S2000x64 .bf16) (g : Vec Ideal S2000x64 .f32) (dd : Vec Ideal S2000x1 .f32) (b : Vec Ideal S1x64 .f32) :
    FVec Ideal S2000x64 .f32 :=
  fun i => g i + h i * dd (ix2 (i 0) (0 : Fin 1)) + b (ix2 (0 : Fin 1) (i 1))

/-- The body's pre-activation vector is `zblk`. -/
theorem pre_eq (h : Vec Ideal S2000x64 .bf16) (g : Vec Ideal S2000x64 .f32) (dd : Vec Ideal S2000x1 .f32) (b : Vec Ideal S1x64 .f32) :
    (addf (addf (shapeCast S2000x64 g shapeCasts_S2000x64_S2000x64)
      (mulf (extf .f32 (shapeCast S2000x64 h shapeCasts_S2000x64_S2000x64) bitsLt_bf16_f32)
        (broadcastTo S2000x64 (shapeCast S2000x1 dd shapeCasts_S2000x1_S2000x1) broadcasts_S2000x1_S2000x64)))
      (broadcastTo S2000x64 (shapeCast S1x64 b shapeCasts_S1x64_S1x64) broadcasts_S1x64_S2000x64) : FVec Ideal S2000x64 .f32) = zblk h g dd b := by
  funext j
  obtain ⟨p, q, rfl⟩ : ∃ (p : Fin 2000) (q : Fin 64), j = ix2 p q := ⟨j 0, j 1, eq_ix2 j⟩
  simp only [shapeCast_self]
  refine congrArg₂ (· + ·) (congrArg₂ (· + ·) rfl (congrArg₂ (· * ·) rfl ?_)) ?_
  · exact broadcastTo_a1_ab_apply dd _ p q
  · exact broadcastTo_1b_ab_apply b _ p q

/-- The body's stored value at (p, q): the pre-activation there less its row's maximum, less the logarithm of the
    row's sum of exponentials of those differences. -/
theorem pay_apply (h : Vec Ideal S2000x64 .bf16) (g : Vec Ideal S2000x64 .f32) (dd : Vec Ideal S2000x1 .f32) (b : Vec Ideal S1x64 .f32)
    (p : Fin 2000) (q : Fin 64) :
    k5_pay1 h g dd b (ix2 p q) = (zblk h g dd b (ix2 p q) - rowMax (zblk h g dd b) p)
      - Ideal.log (∑ c : Fin 64, Ideal.exp (zblk h g dd b (ix2 p c) - rowMax (zblk h g dd b) p)) := by
  unfold k5_pay1
  simp only [pre_eq]
  have hmax : ∀ (p' : Fin 2000) (c : Fin 64), broadcastTo S2000x64 (shapeCast S2000x1
      (multiReduction (F := Ideal) .maximumf [1] S2000 (zblk h g dd b) 0xFF800000#32 reduces_S2000x64_S2000 (.inl rfl) rfl) shapeCasts_S2000_S2000x1)
      broadcasts_S2000x1_S2000x64 (ix2 p' c) = rowMax (zblk h g dd b) p' := fun p' c => by
    rw [broadcastTo_a1_ab_apply, shapeCast_a_a1_apply]
    exact Gram.multiReduction_max_rows_apply (zblk h g dd b) _ _ _ _ p'
  show (zblk h g dd b (ix2 p q) - _) - _ = _
  rw [hmax p q]
  refine congrArg₂ (· - ·) rfl ?_
  rw [broadcastTo_a1_ab_apply]
  show Ideal.log (shapeCast S2000x1 _ shapeCasts_S2000_S2000x1 (ix2 p (0 : Fin 1))) = _
  rw [shapeCast_a_a1_apply]
  refine congrArg Ideal.log ((multiReduction_add_rows_apply _ _ _ _ p).trans (Finset.sum_congr rfl fun c _ => ?_))
  show Ideal.exp (zblk h g dd b (ix2 p c) - _) = _
  rw [hmax p c]

/-- Against whole arrays: when row p of the blocks is row r of the arrays, the stored value is the layer's at (r, q). -/
theorem pay_eq (h : Vec Ideal S2000x64 .bf16) (g : Vec Ideal S2000x64 .f32) (dd : Vec Ideal S2000x1 .f32) (b : Vec Ideal S1x64 .f32)
    (AGG H : Mat 50000 64) (D2 : Mat 50000 1) (B : Mat 1 64) (r : Fin 50000) (p : Fin 2000) (q : Fin 64)
    (hg : ∀ c, g (ix2 p c) = AGG (ix2 r c)) (hh : ∀ c, h (ix2 p c) = H (ix2 r c))
    (hd : dd (ix2 p (0 : Fin 1)) = D2 (ix2 r (0 : Fin 1))) (hb : ∀ c, b (ix2 (0 : Fin 1) c) = B (ix2 (0 : Fin 1) c)) :
    k5_pay1 h g dd b (ix2 p q) = logSoftmax AGG H D2 B (ix2 r q) := by
  have hz : ∀ c, zblk h g dd b (ix2 p c) = pre AGG H D2 B (ix2 r c) := fun c => by
    show g (ix2 p c) + h (ix2 p c) * dd (ix2 p (0 : Fin 1)) + b (ix2 (0 : Fin 1) c) = AGG (ix2 r c) + H (ix2 r c) * D2 (ix2 r (0 : Fin 1)) + B (ix2 (0 : Fin 1) c)
    rw [hg, hh, hd, hb]
  have hm : rowMax (zblk h g dd b) p = rowMax (pre AGG H D2 B) r := by
    unfold rowMax
    exact Finset.fold_congr fun c _ => hz c
  rw [pay_apply, hm, hz q]
  unfold logSoftmax
  refine congrArg₂ (· - ·) rfl (congrArg Ideal.log (Finset.sum_congr rfl fun c _ => ?_))
  rw [hz c]

/-- The printed index maps over the grid: the row blocks follow the point, the bias row stays. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point `t` writes back is block `t` of the layer's function of the four arrays as the call finds them. -/
theorem flushed_eq (c : Dev nD) (t : Fin cfg5.N) :
    (dat5 V c).flushed 4 t = ((cfg5.win 4).blk t).view.read (Elt Ideal)
      (logSoftmax (V c main_v79) (V c main_v65) (V c main_v27) (V c main_v80)) := by
  show (cfg5.win 4).cut (grid5.coords t) ((dat5 V c).after 4 t) = _
  rw [after5_4]
  unfold out5_4
  rw [View.canon_unit_zero hz]
  simp only [View.ld_unit_zero (S := S2000x64) hz, View.ld_unit_zero (S := S2000x1) hz, View.ld_unit_zero (S := S1x64) hz]
  obtain ⟨e0, e1, e2, e3, e4, e5, e6, e7, e8, e9⟩ := idx_facts t
  funext j
  obtain ⟨p, q, rfl⟩ : ∃ (p : Fin 2000) (q : Fin 64), j = ix2 p q := ⟨j 0, j 1, eq_ix2 j⟩
  have hp : p.val < 2000 := p.isLt
  have hq : q.val < 64 := q.isLt
  have ht : t.val < 25 := t.isLt
  have he : ((cfg5.win 4).blk t).view.emb (ix2 p q) = ix2 (⟨t.val * 2000 + p.val, by omega⟩ : Fin 50000) q := by
    funext a; apply Fin.ext
    match a with
    | ⟨0, _⟩ => show win5_4.index t (0 : Fin 2) * 2000 + 1 * p.val = t.val * 2000 + p.val; omega
    | ⟨1, _⟩ => show win5_4.index t (1 : Fin 2) * 64 + 1 * q.val = q.val; omega
  show k5_pay1 (iblk5 V c 1 t) (iblk5 V c 0 t) (iblk5 V c 2 t) (iblk5 V c 3 t) (ix2 p q)
    = logSoftmax (V c main_v79) (V c main_v65) (V c main_v27) (V c main_v80) (((cfg5.win 4).blk t).view.emb (ix2 p q))
  rw [he]
  refine pay_eq (iblk5 V c 1 t) (iblk5 V c 0 t) (iblk5 V c 2 t) (iblk5 V c 3 t)
    (V c main_v79) (V c main_v65) (V c main_v27) (V c main_v80) ⟨t.val * 2000 + p.val, by omega⟩ p q (fun c' => ?_) (fun c' => ?_) ?_ (fun c' => ?_)
  · show V c main_v79 (((cfg5.win 0).blk t).view.emb (ix2 p c')) = _
    refine congrArg (V c main_v79) (funext fun a => Fin.ext ?_)
    have hc : c'.val < 64 := c'.isLt
    match a with
    | ⟨0, _⟩ => show win5_0.index t (0 : Fin 2) * 2000 + 1 * p.val = t.val * 2000 + p.val; omega
    | ⟨1, _⟩ => show win5_0.index t (1 : Fin 2) * 64 + 1 * c'.val = c'.val; omega
  · show V c main_v65 (((cfg5.win 1).blk t).view.emb (ix2 p c')) = _
    refine congrArg (V c main_v65) (funext fun a => Fin.ext ?_)
    have hc : c'.val < 64 := c'.isLt
    match a with
    | ⟨0, _⟩ => show win5_1.index t (0 : Fin 2) * 2000 + 1 * p.val = t.val * 2000 + p.val; omega
    | ⟨1, _⟩ => show win5_1.index t (1 : Fin 2) * 64 + 1 * c'.val = c'.val; omega
  · show V c main_v27 (((cfg5.win 2).blk t).view.emb (ix2 p (0 : Fin 1))) = _
    refine congrArg (V c main_v27) (funext fun a => Fin.ext ?_)
    match a with
    | ⟨0, _⟩ => show win5_2.index t (0 : Fin 2) * 2000 + 1 * p.val = t.val * 2000 + p.val; omega
    | ⟨1, _⟩ => show win5_2.index t (1 : Fin 2) * 1 + 1 * 0 = 0; omega
  · show V c main_v80 (((cfg5.win 3).blk t).view.emb (ix2 (0 : Fin 1) c')) = _
    refine congrArg (V c main_v80) (funext fun a => Fin.ext ?_)
    have hc : c'.val < 64 := c'.isLt
    match a with
    | ⟨0, _⟩ => show win5_3.index t (0 : Fin 2) * 1 + 1 * 0 = 0; omega
    | ⟨1, _⟩ => show win5_3.index t (1 : Fin 2) * 64 + 1 * c'.val = c'.val; omega

/-- An index of the result array is in point `t`'s block iff each coordinate is in the block's range. -/
theorem mem_blk (t : Fin cfg5.N) (i : S50000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole main_v81).slice (win5_4.rect t)).set ↔ _
  rw [View.set_slice_whole, Rect.mem_set_unit]
  exact Iff.rfl

/-- Every row of the result is in the block of the point its row number divided by 2000 names. -/
theorem cover (i : S50000x64.Idx) : ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 25 := N_5
  let t : Fin cfg5.N := ⟨(i 0).val / 2000, by rw [hN]; omega⟩
  obtain ⟨e0, e1, e2, e3, e4, e5, e6, e7, e8, e9⟩ := idx_facts t
  have e8' : win5_4.index t (0 : Fin 2) = (i 0).val / 2000 := e8
  refine ⟨t, flush5_4 t, ?_⟩
  rw [mem_blk]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 64 ≤ (i 1).val ∧ (i 1).val < win5_4.index t (1 : Fin 2) * 64 + 64; omega

/-- The result array after the call: the layer's function of the four arrays as the call finds them. -/
theorem final (c : Dev nD) : (dat5 V c).arrAt 4 cfg5.N = logSoftmax (V c main_v79) (V c main_v65) (V c main_v27) (V c main_v80) :=
  (dat5 V c).arrAt_eq_of_cover 4 (logSoftmax (V c main_v79) (V c main_v65) (V c main_v27) (V c main_v80)) (fun t _ => flushed_eq V c t) cover

end Cert.KernelIdeal.Ep5

end
-- ==== Proof.KChain.lean ====
/-
  The idealized kernel's result as the network's function of its arguments.

  The contents of the buffers are followed through the ten segments of @main. The first host stretch computes, from
  the edge list, the sources, the targets, the edges' weights and the nodes' inverse degrees, and narrows the three
  weight matrices (the identity on the extended reals). Then, three times: a node-tiled call leaves the product of
  the layer's input with its weights; a host stretch gathers, scales and scatters that product along the edges and
  lays the bias out as a row; a node-tiled call leaves the layer's output. Each call's result array is the closed
  form proved for it; every other buffer a segment does not write is carried over. Read at the result buffer, the
  last boundary's contents are the network's function of the eight arguments.
-/
import proofs.«134760_j77008763617446_2_alg».proof.Proof.KKeep
import proofs.«134760_j77008763617446_2_alg».proof.Proof.Net
import proofs.«134760_j77008763617446_2_alg».proof.Proof.Mm0
import proofs.«134760_j77008763617446_2_alg».proof.Proof.Mm2
import proofs.«134760_j77008763617446_2_alg».proof.Proof.Mm4
import proofs.«134760_j77008763617446_2_alg».proof.Proof.Ep1
import proofs.«134760_j77008763617446_2_alg».proof.Proof.Ep3
import proofs.«134760_j77008763617446_2_alg».proof.Proof.Ep5
import Idealize.ShloMosaic.Lib.StableHlo.Run

set_option maxRecDepth 16384

noncomputable section

namespace Cert.KernelIdeal.Chain

open Cert.KernelIdeal Cert.KernelIdeal.Gen Cert.KernelIdeal.Graph Cert.KernelIdeal.Facts₀ Cert.KernelIdeal.Facts Cert.GCN
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg)

/-! ## After the first host stretch -/

set_option maxHeartbeats 2000000 in
theorem W1_v1 (c : Dev nD) : W1 m ρ c (Proc.devRef .tc main_v1) = srcOf (m ((c.tc : Thread nD τ).loc main_arg7)) := by
  show StableHlo.after hostOps0 (W0 m ρ c) (Proc.devRef .tc main_v1) = _
  after_results_simp
  rfl

set_option maxHeartbeats 2000000 in
theorem W1_v3 (c : Dev nD) : W1 m ρ c (Proc.devRef .tc main_v3) = dstOf (m ((c.tc : Thread nD τ).loc main_arg7)) := by
  show StableHlo.after hostOps0 (W0 m ρ c) (Proc.devRef .tc main_v3) = _
  after_results_simp
  rfl

set_option maxHeartbeats 2000000 in
theorem W1_v25 (c : Dev nD) : W1 m ρ c (Proc.devRef .tc main_v25) = normOf (srcOf (m ((c.tc : Thread nD τ).loc main_arg7))) (dstOf (m ((c.tc : Thread nD τ).loc main_arg7))) := by
  show StableHlo.after hostOps0 (W0 m ρ c) (Proc.devRef .tc main_v25) = _
  after_results_simp
  rfl

set_option maxHeartbeats 2000000 in
theorem W1_v27 (c : Dev nD) : W1 m ρ c (Proc.devRef .tc main_v27) = dinv2Col (m ((c.tc : Thread nD τ).loc main_arg7)) := by
  show StableHlo.after hostOps0 (W0 m ρ c) (Proc.devRef .tc main_v27) = _
  after_results_simp
  rfl

set_option maxHeartbeats 2000000 in
theorem W1_v28 (c : Dev nD) : W1 m ρ c (Proc.devRef .tc main_v28) = (m ((c.tc : Thread nD τ).loc main_arg1)) := by
  show StableHlo.after hostOps0 (W0 m ρ c) (Proc.devRef .tc main_v28) = _
  after_results_simp
  rfl

set_option maxHeartbeats 2000000 in
theorem W1_v29 (c : Dev nD) : W1 m ρ c (Proc.devRef .tc main_v29) = (m ((c.tc : Thread nD τ).loc main_arg3)) := by
  show StableHlo.after hostOps0 (W0 m ρ c) (Proc.devRef .tc main_v29) = _
  after_results_simp
  rfl

set_option maxHeartbeats 2000000 in
theorem W1_v30 (c : Dev nD) : W1 m ρ c (Proc.devRef .tc main_v30) = (m ((c.tc : Thread nD τ).loc main_arg5)) := by
  show StableHlo.after hostOps0 (W0 m ρ c) (Proc.devRef .tc main_v30) = _
  after_results_simp
  rfl

/-! ## Layer 1 -/

/-- The first call leaves the product of the features with the first weight matrix. -/
theorem W2_v31 (c : Dev nD) : W2 m ρ c (Proc.devRef .tc main_v31) = lin (n := 50000) (K := 128) (d := 128) (m ((c.tc : Thread nD τ).loc main_arg0)) (m ((c.tc : Thread nD τ).loc main_arg1)) := by
  refine (W2_arr m ρ c 2).trans ?_
  refine (Mm0.final (V1 m ρ) c).trans ?_
  show lin (n := 50000) (K := 128) (d := 128) (W1 m ρ c (Proc.devRef .tc main_arg0)) (W1 m ρ c (Proc.devRef .tc main_v28)) = _
  rw [Keep.W1_main_arg0_from0, W1_v28]

set_option maxHeartbeats 2000000 in
theorem W3_v45 (c : Dev nD) : W3 m ρ c (Proc.devRef .tc main_v45) = agg128K (W2 m ρ c (Proc.devRef .tc main_v31)) (W2 m ρ c (Proc.devRef .tc main_v1)) (W2 m ρ c (Proc.devRef .tc main_v3)) (W2 m ρ c (Proc.devRef .tc main_v25)) := by
  show StableHlo.after hostOps1 (W2 m ρ c) (Proc.devRef .tc main_v45) = _
  after_results_simp
  rfl

set_option maxHeartbeats 2000000 in
theorem W3_v46 (c : Dev nD) : W3 m ρ c (Proc.devRef .tc main_v46) = shapeCast S1x128 (W2 m ρ c (Proc.devRef .tc main_arg2)) Facts₀.shapeCasts_S128_S1x128 := by
  show StableHlo.after hostOps1 (W2 m ρ c) (Proc.devRef .tc main_v46) = _
  after_results_simp
  rfl

/-- The second call leaves the first layer's output. -/
theorem W4_v47 (c : Dev nD) : W4 m ρ c (Proc.devRef .tc main_v47) = hidden (m ((c.tc : Thread nD τ).loc main_arg0)) (m ((c.tc : Thread nD τ).loc main_arg1)) (m ((c.tc : Thread nD τ).loc main_arg2)) (m ((c.tc : Thread nD τ).loc main_arg7)) := by
  refine (W4_arr m ρ c 4).trans ?_
  refine (Ep1.final (V3 m ρ) c).trans ?_
  show relu (n := 50000) (d := 128) (W3 m ρ c (Proc.devRef .tc main_v45)) (W3 m ρ c (Proc.devRef .tc main_v31)) (W3 m ρ c (Proc.devRef .tc main_v27)) (W3 m ρ c (Proc.devRef .tc main_v46)) = _
  rw [W3_v45, agg128K_eq, W3_v46, Keep.W3_main_v31_from2, Keep.W3_main_v27_from1, Keep.W2_main_v1_from1, Keep.W2_main_v3_from1, Keep.W2_main_v25_from1,
    Keep.W2_main_arg2_from0, W2_v31, W1_v1, W1_v3, W1_v25, W1_v27]
  rfl

/-! ## Layer 2 -/

/-- The third call leaves the product of the first layer's output with the second weight matrix. -/
theorem W5_v48 (c : Dev nD) : W5 m ρ c (Proc.devRef .tc main_v48)
    = lin (n := 50000) (K := 128) (d := 128) (hidden (m ((c.tc : Thread nD τ).loc main_arg0)) (m ((c.tc : Thread nD τ).loc main_arg1)) (m ((c.tc : Thread nD τ).loc main_arg2)) (m ((c.tc : Thread nD τ).loc main_arg7))) (m ((c.tc : Thread nD τ).loc main_arg3)) := by
  refine (W5_arr m ρ c 2).trans ?_
  refine (Mm2.final (V4 m ρ) c).trans ?_
  show lin (n := 50000) (K := 128) (d := 128) (W4 m ρ c (Proc.devRef .tc main_v47)) (W4 m ρ c (Proc.devRef .tc main_v29)) = _
  rw [W4_v47, Keep.W4_main_v29_from1, W1_v29]

set_option maxHeartbeats 2000000 in
theorem W6_v62 (c : Dev nD) : W6 m ρ c (Proc.devRef .tc main_v62) = agg128K (W5 m ρ c (Proc.devRef .tc main_v48)) (W5 m ρ c (Proc.devRef .tc main_v1)) (W5 m ρ c (Proc.devRef .tc main_v3)) (W5 m ρ c (Proc.devRef .tc main_v25)) := by
  show StableHlo.after hostOps3 (W5 m ρ c) (Proc.devRef .tc main_v62) = _
  after_results_simp
  rfl

set_option maxHeartbeats 2000000 in
theorem W6_v63 (c : Dev nD) : W6 m ρ c (Proc.devRef .tc main_v63) = shapeCast S1x128 (W5 m ρ c (Proc.devRef .tc main_arg4)) Facts₀.shapeCasts_S128_S1x128 := by
  show StableHlo.after hostOps3 (W5 m ρ c) (Proc.devRef .tc main_v63) = _
  after_results_simp
  rfl

/-- The fourth call leaves the second layer's output. -/
theorem W7_v64 (c : Dev nD) : W7 m ρ c (Proc.devRef .tc main_v64)
    = hidden (hidden (m ((c.tc : Thread nD τ).loc main_arg0)) (m ((c.tc : Thread nD τ).loc main_arg1)) (m ((c.tc : Thread nD τ).loc main_arg2)) (m ((c.tc : Thread nD τ).loc main_arg7))) (m ((c.tc : Thread nD τ).loc main_arg3)) (m ((c.tc : Thread nD τ).loc main_arg4)) (m ((c.tc : Thread nD τ).loc main_arg7)) := by
  refine (W7_arr m ρ c 4).trans ?_
  refine (Ep3.final (V6 m ρ) c).trans ?_
  show relu (n := 50000) (d := 128) (W6 m ρ c (Proc.devRef .tc main_v62)) (W6 m ρ c (Proc.devRef .tc main_v48)) (W6 m ρ c (Proc.devRef .tc main_v27)) (W6 m ρ c (Proc.devRef .tc main_v63)) = _
  rw [W6_v62, agg128K_eq, W6_v63, Keep.W6_main_v48_from5, Keep.W6_main_v27_from1, Keep.W5_main_v1_from1, Keep.W5_main_v3_from1, Keep.W5_main_v25_from1,
    Keep.W5_main_arg4_from0, W5_v48, W1_v1, W1_v3, W1_v25, W1_v27]
  rfl

/-! ## Layer 3 -/

/-- The fifth call leaves the product of the second layer's output with the third weight matrix. -/
theorem W8_v65 (c : Dev nD) : W8 m ρ c (Proc.devRef .tc main_v65)
    = lin (n := 50000) (K := 128) (d := 64) (hidden (hidden (m ((c.tc : Thread nD τ).loc main_arg0)) (m ((c.tc : Thread nD τ).loc main_arg1)) (m ((c.tc : Thread nD τ).loc main_arg2)) (m ((c.tc : Thread nD τ).loc main_arg7))) (m ((c.tc : Thread nD τ).loc main_arg3)) (m ((c.tc : Thread nD τ).loc main_arg4)) (m ((c.tc : Thread nD τ).loc main_arg7))) (m ((c.tc : Thread nD τ).loc main_arg5)) := by
  refine (W8_arr m ρ c 2).trans ?_
  refine (Mm4.final (V7 m ρ) c).trans ?_
  show lin (n := 50000) (K := 128) (d := 64) (W7 m ρ c (Proc.devRef .tc main_v64)) (W7 m ρ c (Proc.devRef .tc main_v30)) = _
  rw [W7_v64, Keep.W7_main_v30_from1, W1_v30]

set_option maxHeartbeats 2000000 in
theorem W9_v79 (c : Dev nD) : W9 m ρ c (Proc.devRef .tc main_v79) = agg64K (W8 m ρ c (Proc.devRef .tc main_v65)) (W8 m ρ c (Proc.devRef .tc main_v1)) (W8 m ρ c (Proc.devRef .tc main_v3)) (W8 m ρ c (Proc.devRef .tc main_v25)) := by
  show StableHlo.after hostOps5 (W8 m ρ c) (Proc.devRef .tc main_v79) = _
  after_results_simp
  rfl

set_option maxHeartbeats 2000000 in
theorem W9_v80 (c : Dev nD) : W9 m ρ c (Proc.devRef .tc main_v80) = shapeCast S1x64 (W8 m ρ c (Proc.devRef .tc main_arg6)) Facts₀.shapeCasts_S64_S1x64 := by
  show StableHlo.after hostOps5 (W8 m ρ c) (Proc.devRef .tc main_v80) = _
  after_results_simp
  rfl

/-- The last call leaves the network's output: the result buffer at the last boundary. -/
theorem W10_v81 (c : Dev nD) : W10 m ρ c (Proc.devRef .tc main_v81)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W10_arr m ρ c 4).trans ?_
  refine (Ep5.final (V9 m ρ) c).trans ?_
  show logSoftmax (n := 50000) (d := 64) (W9 m ρ c (Proc.devRef .tc main_v79)) (W9 m ρ c (Proc.devRef .tc main_v65)) (W9 m ρ c (Proc.devRef .tc main_v27)) (W9 m ρ c (Proc.devRef .tc main_v80)) = _
  rw [W9_v79, agg64K_eq, W9_v80, Keep.W9_main_v65_from8, Keep.W9_main_v27_from1, Keep.W8_main_v1_from1, Keep.W8_main_v3_from1, Keep.W8_main_v25_from1,
    Keep.W8_main_arg6_from0, W8_v65, W1_v1, W1_v3, W1_v25, W1_v27]
  rfl

end Cert.KernelIdeal.Chain

end
-- ==== Proof.LibStretches.lean ====
/-
  Two facts for reading a long straight line of host operations in stretches.

  When a line of operations is the concatenation of two lines, the memory after it is the memory after the second
  line started from the memory after the first (after_append); so a long line can be evaluated stretch by stretch,
  each stretch over an arbitrary starting memory, and a value that several later operations read is evaluated once.
  A property of every operation of two lines holds of every operation of their concatenation (forall_append): the
  side condition a run over the whole line takes, assembled from the stretches'.
-/
import Idealize.ShloMosaic.Lib.StableHlo.Run

noncomputable section

namespace Idealize.ShloMosaic.StableHlo.Stretches

open Idealize.ShloMosaic Idealize.ShloMosaic.StableHlo

variable {τ : Topo} {sig : RefSig} {Val : EltTy → Type}

/-- The memory after two lines run one after the other is the memory after the second, from the memory after the
    first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} : ∀ (l₁ l₂ : List (HloOp τ sig Val)), l₁.Forall p → l₂.Forall p → (l₁ ++ l₂).Forall p
  | [], _, _, h₂ => h₂
  | a :: l, l₂, h₁, h₂ => by
    rw [List.cons_append, List.forall_cons]; rw [List.forall_cons] at h₁; exact ⟨h₁.1, forall_append l l₂ h₁.2 h₂⟩

end Idealize.ShloMosaic.StableHlo.Stretches

end
-- ==== Proof.RefRun.lean ====
/-
  The reference's @main as a line of host operations, cut into three stretches, and its run.

  The reference is a straight line of 187 host operations: the edge list's rows, then three times the same
  chain — a matrix product, the degrees and the edges' weights recomputed from the targets, the gather, scaling and
  scatter along the edges, the self-loop term and the bias — followed by a rectifier after the first two chains and
  by the logarithm of the softmax after the third. The line is the concatenation of three stretches, one per layer,
  so the memory after it is the memory after the third stretch from the memory after the second from the memory
  after the first. Every weakly fair execution terminates with each buffer at that memory.
-/
import proofs.«134760_j77008763617446_2_alg».proof.Proof.Gen.ReferenceIdeal
import proofs.«134760_j77008763617446_2_alg».proof.Proof.LibStretches
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The first layer's operations, through its rectifier. -/
abbrev opsA : List (HloOp τ sig (Elt F)) :=
  [ unary main_arg7 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg7 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    binary main_arg0 main_arg1 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v5 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v6 (broadcastInDim S50000 ![] bcast_S_S50000 : (⟨S_, .f32⟩ : BufTy).Contents (Elt F) → (⟨S50000, .f32⟩ : BufTy).Contents (Elt F)),
    unary main_v3 main_v7 (broadcastInDim S600000x1 ![0] bcast_S600000_S600000x1_0 : (⟨S600000, .i32⟩ : BufTy).Contents (Elt F) → (⟨S600000x1, .i32⟩ : BufTy).Contents (Elt F)),
    ternary main_v6 main_v7 main_v5 main_v8 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x3F800000#32),
    unary main_cst_1 main_v9 (broadcastInDim S50000 ![] bcast_S_S50000 : (⟨S_, .f32⟩ : BufTy).Contents (Elt F) → (⟨S50000, .f32⟩ : BufTy).Contents (Elt F)),
    binary main_v8 main_v9 main_v10 (addf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_c (constantI S_ 32 0#32),
    unary main_c main_v12 (broadcastInDim S600000 ![] bcast_S_S600000 : (⟨S_, .i32⟩ : BufTy).Contents (Elt F) → (⟨S600000, .i32⟩ : BufTy).Contents (Elt F)),
    binary main_v1 main_v12 main_v13 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v14 (broadcastInDim S600000 ![] bcast_S_S600000 : (⟨S_, .i32⟩ : BufTy).Contents (Elt F) → (⟨S600000, .i32⟩ : BufTy).Contents (Elt F)),
    binary main_v1 main_v14 main_v15 (addi : (⟨S600000, .i32⟩ : BufTy).Contents (Elt F) → (⟨S600000, .i32⟩ : BufTy).Contents (Elt F) → (⟨S600000, .i32⟩ : BufTy).Contents (Elt F)),
    ternary main_v13 main_v15 main_v1 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v16 main_v17 (broadcastInDim S600000x1 ![0] bcast_S600000_S600000x1_0 : (⟨S600000, .i32⟩ : BufTy).Contents (Elt F) → (⟨S600000x1, .i32⟩ : BufTy).Contents (Elt F)),
    binary main_v11 main_v17 main_v18 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_3 (constantI S_ 32 0#32),
    unary main_c_3 main_v19 (broadcastInDim S600000 ![] bcast_S_S600000 : (⟨S_, .i32⟩ : BufTy).Contents (Elt F) → (⟨S600000, .i32⟩ : BufTy).Contents (Elt F)),
    binary main_v3 main_v19 main_v20 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v21 (broadcastInDim S600000 ![] bcast_S_S600000 : (⟨S_, .i32⟩ : BufTy).Contents (Elt F) → (⟨S600000, .i32⟩ : BufTy).Contents (Elt F)),
    binary main_v3 main_v21 main_v22 (addi : (⟨S600000, .i32⟩ : BufTy).Contents (Elt F) → (⟨S600000, .i32⟩ : BufTy).Contents (Elt F) → (⟨S600000, .i32⟩ : BufTy).Contents (Elt F)),
    ternary main_v20 main_v22 main_v3 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v23 main_v24 (broadcastInDim S600000x1 ![0] bcast_S600000_S600000x1_0 : (⟨S600000, .i32⟩ : BufTy).Contents (Elt F) → (⟨S600000x1, .i32⟩ : BufTy).Contents (Elt F)),
    binary main_v11 main_v24 main_v25 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v18 main_v25 main_v26 (mulf : (⟨S600000, .f32⟩ : BufTy).Contents (Elt F) → (⟨S600000, .f32⟩ : BufTy).Contents (Elt F) → (⟨S600000, .f32⟩ : BufTy).Contents (Elt F)),
    nullary main_c_5 (constantI S_ 32 0#32),
    unary main_c_5 main_v27 (broadcastInDim S600000 ![] bcast_S_S600000 : (⟨S_, .i32⟩ : BufTy).Contents (Elt F) → (⟨S600000, .i32⟩ : BufTy).Contents (Elt F)),
    binary main_v1 main_v27 main_v28 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v29 (broadcastInDim S600000 ![] bcast_S_S600000 : (⟨S_, .i32⟩ : BufTy).Contents (Elt F) → (⟨S600000, .i32⟩ : BufTy).Contents (Elt F)),
    binary main_v1 main_v29 main_v30 (addi : (⟨S600000, .i32⟩ : BufTy).Contents (Elt F) → (⟨S600000, .i32⟩ : BufTy).Contents (Elt F) → (⟨S600000, .i32⟩ : BufTy).Contents (Elt F)),
    ternary main_v28 main_v30 main_v1 main_v31 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v31 main_v32 (broadcastInDim S600000x1 ![0] bcast_S600000_S600000x1_0 : (⟨S600000, .i32⟩ : BufTy).Contents (Elt F) → (⟨S600000x1, .i32⟩ : BufTy).Contents (Elt F)),
    binary main_v4 main_v32 main_v33 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v26 main_v34 (broadcastInDim S600000x1 ![0] bcast_S600000_S600000x1_0 : (⟨S600000, .f32⟩ : BufTy).Contents (Elt F) → (⟨S600000x1, .f32⟩ : BufTy).Contents (Elt F)),
    unary main_v34 main_v35 (broadcastInDim S600000x128 ![0, 1] bcast_S600000x1_S600000x128_0_1 : (⟨S600000x1, .f32⟩ : BufTy).Contents (Elt F) → (⟨S600000x128, .f32⟩ : BufTy).Contents (Elt F)),
    binary main_v33 main_v35 main_v36 (mulf : (⟨S600000x128, .f32⟩ : BufTy).Contents (Elt F) → (⟨S600000x128, .f32⟩ : BufTy).Contents (Elt F) → (⟨S600000x128, .f32⟩ : BufTy).Contents (Elt F)),
    nullary main_cst_7 (constant S_ .f32 0x00000000#32),
    unary main_cst_7 main_v37 (broadcastInDim S50000x128 ![] bcast_S_S50000x128 : (⟨S_, .f32⟩ : BufTy).Contents (Elt F) → (⟨S50000x128, .f32⟩ : BufTy).Contents (Elt F)),
    unary main_v3 main_v38 (broadcastInDim S600000x1 ![0] bcast_S600000_S600000x1_0 : (⟨S600000, .i32⟩ : BufTy).Contents (Elt F) → (⟨S600000x1, .i32⟩ : BufTy).Contents (Elt F)),
    ternary main_v37 main_v38 main_v36 main_v39 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v11 main_v11 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_v4 main_v42 main_v43 (mulf : (⟨S50000x128, .f32⟩ : BufTy).Contents (Elt F) → (⟨S50000x128, .f32⟩ : BufTy).Contents (Elt F) → (⟨S50000x128, .f32⟩ : BufTy).Contents (Elt F)),
    binary main_v39 main_v43 main_v44 (addf : (⟨S50000x128, .f32⟩ : BufTy).Contents (Elt F) → (⟨S50000x128, .f32⟩ : BufTy).Contents (Elt F) → (⟨S50000x128, .f32⟩ : BufTy).Contents (Elt F)),
    unary main_arg2 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v47) (TRef.of (T := ⟨S50000x128, .f32⟩) main_call0_v0) (TRef.of (T := ⟨S50000x128, .f32⟩) main_v48) maximumf ]

/-- The second layer's operations, through its rectifier. -/
abbrev opsB : List (HloOp τ sig (Elt F)) :=
  [ binary main_v48 main_arg3 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_8 (constant S_ .f32 0x3F800000#32),
    unary main_cst_8 main_v50 (broadcastInDim S600000 ![] bcast_S_S600000 : (⟨S_, .f32⟩ : BufTy).Contents (Elt F) → (⟨S600000, .f32⟩ : BufTy).Contents (Elt F)),
    nullary main_cst_9 (constant S_ .f32 0x00000000#32),
    unary main_cst_9 main_v51 (broadcastInDim S50000 ![] bcast_S_S50000 : (⟨S_, .f32⟩ : BufTy).Contents (Elt F) → (⟨S50000, .f32⟩ : BufTy).Contents (Elt F)),
    unary main_v3 main_v52 (broadcastInDim S600000x1 ![0] bcast_S600000_S600000x1_0 : (⟨S600000, .i32⟩ : BufTy).Contents (Elt F) → (⟨S600000x1, .i32⟩ : BufTy).Contents (Elt F)),
    ternary main_v51 main_v52 main_v50 main_v53 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_10 (constant S_ .f32 0x3F800000#32),
    unary main_cst_10 main_v54 (broadcastInDim S50000 ![] bcast_S_S50000 : (⟨S_, .f32⟩ : BufTy).Contents (Elt F) → (⟨S50000, .f32⟩ : BufTy).Contents (Elt F)),
    binary main_v53 main_v54 main_v55 (addf : (⟨S50000, .f32⟩ : BufTy).Contents (Elt F) → (⟨S50000, .f32⟩ : BufTy).Contents (Elt F) → (⟨S50000, .f32⟩ : BufTy).Contents (Elt F)),
    unary main_v55 main_v56 (Host.rsqrt : (⟨S50000, .f32⟩ : BufTy).Contents (Elt F) → (⟨S50000, .f32⟩ : BufTy).Contents (Elt F)),
    nullary main_c_11 (constantI S_ 32 0#32),
    unary main_c_11 main_v57 (broadcastInDim S600000 ![] bcast_S_S600000 : (⟨S_, .i32⟩ : BufTy).Contents (Elt F) → (⟨S600000, .i32⟩ : BufTy).Contents (Elt F)),
    binary main_v1 main_v57 main_v58 (cmpi .slt : (⟨S600000, .i32⟩ : BufTy).Contents (Elt F) → (⟨S600000, .i32⟩ : BufTy).Contents (Elt F) → (⟨S600000, .i1⟩ : BufTy).Contents (Elt F)),
    nullary main_c_12 (constantI S_ 32 50000#32),
    unary main_c_12 main_v59 (broadcastInDim S600000 ![] bcast_S_S600000 : (⟨S_, .i32⟩ : BufTy).Contents (Elt F) → (⟨S600000, .i32⟩ : BufTy).Contents (Elt F)),
    binary main_v1 main_v59 main_v60 (addi : (⟨S600000, .i32⟩ : BufTy).Contents (Elt F) → (⟨S600000, .i32⟩ : BufTy).Contents (Elt F) → (⟨S600000, .i32⟩ : BufTy).Contents (Elt F)),
    ternary main_v58 main_v60 main_v1 main_v61 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v61 main_v62 (broadcastInDim S600000x1 ![0] bcast_S600000_S600000x1_0 : (⟨S600000, .i32⟩ : BufTy).Contents (Elt F) → (⟨S600000x1, .i32⟩ : BufTy).Contents (Elt F)),
    binary main_v56 main_v62 main_v63 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_13 (constantI S_ 32 0#32),
    unary main_c_13 main_v64 (broadcastInDim S600000 ![] bcast_S_S600000 : (⟨S_, .i32⟩ : BufTy).Contents (Elt F) → (⟨S600000, .i32⟩ : BufTy).Contents (Elt F)),
    binary main_v3 main_v64 main_v65 (cmpi .slt : (⟨S600000, .i32⟩ : BufTy).Contents (Elt F) → (⟨S600000, .i32⟩ : BufTy).Contents (Elt F) → (⟨S600000, .i1⟩ : BufTy).Contents (Elt F)),
    nullary main_c_14 (constantI S_ 32 50000#32),
    unary main_c_14 main_v66 (broadcastInDim S600000 ![] bcast_S_S600000 : (⟨S_, .i32⟩ : BufTy).Contents (Elt F) → (⟨S600000, .i32⟩ : BufTy).Contents (Elt F)),
    binary main_v3 main_v66 main_v67 (addi : (⟨S600000, .i32⟩ : BufTy).Contents (Elt F) → (⟨S600000, .i32⟩ : BufTy).Contents (Elt F) → (⟨S600000, .i32⟩ : BufTy).Contents (Elt F)),
    ternary main_v65 main_v67 main_v3 main_v68 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v68 main_v69 (broadcastInDim S600000x1 ![0] bcast_S600000_S600000x1_0 : (⟨S600000, .i32⟩ : BufTy).Contents (Elt F) → (⟨S600000x1, .i32⟩ : BufTy).Contents (Elt F)),
    binary main_v56 main_v69 main_v70 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v63 main_v70 main_v71 (mulf : (⟨S600000, .f32⟩ : BufTy).Contents (Elt F) → (⟨S600000, .f32⟩ : BufTy).Contents (Elt F) → (⟨S600000, .f32⟩ : BufTy).Contents (Elt F)),
    nullary main_c_15 (constantI S_ 32 0#32),
    unary main_c_15 main_v72 (broadcastInDim S600000 ![] bcast_S_S600000 : (⟨S_, .i32⟩ : BufTy).Contents (Elt F) → (⟨S600000, .i32⟩ : BufTy).Contents (Elt F)),
    binary main_v1 main_v72 main_v73 (cmpi .slt : (⟨S600000, .i32⟩ : BufTy).Contents (Elt F) → (⟨S600000, .i32⟩ : BufTy).Contents (Elt F) → (⟨S600000, .i1⟩ : BufTy).Contents (Elt F)),
    nullary main_c_16 (constantI S_ 32 50000#32),
    unary main_c_16 main_v74 (broadcastInDim S600000 ![] bcast_S_S600000 : (⟨S_, .i32⟩ : BufTy).Contents (Elt F) → (⟨S600000, .i32⟩ : BufTy).Contents (Elt F)),
    binary main_v1 main_v74 main_v75 (addi : (⟨S600000, .i32⟩ : BufTy).Contents (Elt F) → (⟨S600000, .i32⟩ : BufTy).Contents (Elt F) → (⟨S600000, .i32⟩ : BufTy).Contents (Elt F)),
    ternary main_v73 main_v75 main_v1 main_v76 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v76 main_v77 (broadcastInDim S600000x1 ![0] bcast_S600000_S600000x1_0 : (⟨S600000, .i32⟩ : BufTy).Contents (Elt F) → (⟨S600000x1, .i32⟩ : BufTy).Contents (Elt F)),
    binary main_v49 main_v77 main_v78 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v71 main_v79 (broadcastInDim S600000x1 ![0] bcast_S600000_S600000x1_0 : (⟨S600000, .f32⟩ : BufTy).Contents (Elt F) → (⟨S600000x1, .f32⟩ : BufTy).Contents (Elt F)),
    unary main_v79 main_v80 (broadcastInDim S600000x128 ![0, 1] bcast_S600000x1_S600000x128_0_1 : (⟨S600000x1, .f32⟩ : BufTy).Contents (Elt F) → (⟨S600000x128, .f32⟩ : BufTy).Contents (Elt F)),
    binary main_v78 main_v80 main_v81 (mulf : (⟨S600000x128, .f32⟩ : BufTy).Contents (Elt F) → (⟨S600000x128, .f32⟩ : BufTy).Contents (Elt F) → (⟨S600000x128, .f32⟩ : BufTy).Contents (Elt F)),
    nullary main_cst_17 (constant S_ .f32 0x00000000#32),
    unary main_cst_17 main_v82 (broadcastInDim S50000x128 ![] bcast_S_S50000x128 : (⟨S_, .f32⟩ : BufTy).Contents (Elt F) → (⟨S50000x128, .f32⟩ : BufTy).Contents (Elt F)),
    unary main_v3 main_v83 (broadcastInDim S600000x1 ![0] bcast_S600000_S600000x1_0 : (⟨S600000, .i32⟩ : BufTy).Contents (Elt F) → (⟨S600000x1, .i32⟩ : BufTy).Contents (Elt F)),
    ternary main_v82 main_v83 main_v81 main_v84 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v56 main_v56 main_v85 (mulf : (⟨S50000, .f32⟩ : BufTy).Contents (Elt F) → (⟨S50000, .f32⟩ : BufTy).Contents (Elt F) → (⟨S50000, .f32⟩ : BufTy).Contents (Elt F)),
    unary main_v85 main_v86 (broadcastInDim S50000x1 ![0] bcast_S50000_S50000x1_0 : (⟨S50000, .f32⟩ : BufTy).Contents (Elt F) → (⟨S50000x1, .f32⟩ : BufTy).Contents (Elt F)),
    unary main_v86 main_v87 (broadcastInDim S50000x128 ![0, 1] bcast_S50000x1_S50000x128_0_1 : (⟨S50000x1, .f32⟩ : BufTy).Contents (Elt F) → (⟨S50000x128, .f32⟩ : BufTy).Contents (Elt F)),
    binary main_v49 main_v87 main_v88 (mulf : (⟨S50000x128, .f32⟩ : BufTy).Contents (Elt F) → (⟨S50000x128, .f32⟩ : BufTy).Contents (Elt F) → (⟨S50000x128, .f32⟩ : BufTy).Contents (Elt F)),
    binary main_v84 main_v88 main_v89 (addf : (⟨S50000x128, .f32⟩ : BufTy).Contents (Elt F) → (⟨S50000x128, .f32⟩ : BufTy).Contents (Elt F) → (⟨S50000x128, .f32⟩ : BufTy).Contents (Elt F)),
    unary main_arg4 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v89 main_v91 main_v92 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v92) (TRef.of (T := ⟨S50000x128, .f32⟩) main_call1_v0) (TRef.of (T := ⟨S50000x128, .f32⟩) main_v93) maximumf ]

/-- The third layer's operations and the logarithm of the softmax. -/
abbrev opsC : List (HloOp τ sig (Elt F)) :=
  [ binary main_v93 main_arg5 main_v94 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_cst_18 (constant S_ .f32 0x3F800000#32),
    unary main_cst_18 main_v95 (broadcastInDim S600000 ![] bcast_S_S600000 : (⟨S_, .f32⟩ : BufTy).Contents (Elt F) → (⟨S600000, .f32⟩ : BufTy).Contents (Elt F)),
    nullary main_cst_19 (constant S_ .f32 0x00000000#32),
    unary main_cst_19 main_v96 (broadcastInDim S50000 ![] bcast_S_S50000 : (⟨S_, .f32⟩ : BufTy).Contents (Elt F) → (⟨S50000, .f32⟩ : BufTy).Contents (Elt F)),
    unary main_v3 main_v97 (broadcastInDim S600000x1 ![0] bcast_S600000_S600000x1_0 : (⟨S600000, .i32⟩ : BufTy).Contents (Elt F) → (⟨S600000x1, .i32⟩ : BufTy).Contents (Elt F)),
    ternary main_v96 main_v97 main_v95 main_v98 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_20 (constant S_ .f32 0x3F800000#32),
    unary main_cst_20 main_v99 (broadcastInDim S50000 ![] bcast_S_S50000 : (⟨S_, .f32⟩ : BufTy).Contents (Elt F) → (⟨S50000, .f32⟩ : BufTy).Contents (Elt F)),
    binary main_v98 main_v99 main_v100 (addf : (⟨S50000, .f32⟩ : BufTy).Contents (Elt F) → (⟨S50000, .f32⟩ : BufTy).Contents (Elt F) → (⟨S50000, .f32⟩ : BufTy).Contents (Elt F)),
    unary main_v100 main_v101 (Host.rsqrt : (⟨S50000, .f32⟩ : BufTy).Contents (Elt F) → (⟨S50000, .f32⟩ : BufTy).Contents (Elt F)),
    nullary main_c_21 (constantI S_ 32 0#32),
    unary main_c_21 main_v102 (broadcastInDim S600000 ![] bcast_S_S600000 : (⟨S_, .i32⟩ : BufTy).Contents (Elt F) → (⟨S600000, .i32⟩ : BufTy).Contents (Elt F)),
    binary main_v1 main_v102 main_v103 (cmpi .slt : (⟨S600000, .i32⟩ : BufTy).Contents (Elt F) → (⟨S600000, .i32⟩ : BufTy).Contents (Elt F) → (⟨S600000, .i1⟩ : BufTy).Contents (Elt F)),
    nullary main_c_22 (constantI S_ 32 50000#32),
    unary main_c_22 main_v104 (broadcastInDim S600000 ![] bcast_S_S600000 : (⟨S_, .i32⟩ : BufTy).Contents (Elt F) → (⟨S600000, .i32⟩ : BufTy).Contents (Elt F)),
    binary main_v1 main_v104 main_v105 (addi : (⟨S600000, .i32⟩ : BufTy).Contents (Elt F) → (⟨S600000, .i32⟩ : BufTy).Contents (Elt F) → (⟨S600000, .i32⟩ : BufTy).Contents (Elt F)),
    ternary main_v103 main_v105 main_v1 main_v106 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v106 main_v107 (broadcastInDim S600000x1 ![0] bcast_S600000_S600000x1_0 : (⟨S600000, .i32⟩ : BufTy).Contents (Elt F) → (⟨S600000x1, .i32⟩ : BufTy).Contents (Elt F)),
    binary main_v101 main_v107 main_v108 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_23 (constantI S_ 32 0#32),
    unary main_c_23 main_v109 (broadcastInDim S600000 ![] bcast_S_S600000 : (⟨S_, .i32⟩ : BufTy).Contents (Elt F) → (⟨S600000, .i32⟩ : BufTy).Contents (Elt F)),
    binary main_v3 main_v109 main_v110 (cmpi .slt : (⟨S600000, .i32⟩ : BufTy).Contents (Elt F) → (⟨S600000, .i32⟩ : BufTy).Contents (Elt F) → (⟨S600000, .i1⟩ : BufTy).Contents (Elt F)),
    nullary main_c_24 (constantI S_ 32 50000#32),
    unary main_c_24 main_v111 (broadcastInDim S600000 ![] bcast_S_S600000 : (⟨S_, .i32⟩ : BufTy).Contents (Elt F) → (⟨S600000, .i32⟩ : BufTy).Contents (Elt F)),
    binary main_v3 main_v111 main_v112 (addi : (⟨S600000, .i32⟩ : BufTy).Contents (Elt F) → (⟨S600000, .i32⟩ : BufTy).Contents (Elt F) → (⟨S600000, .i32⟩ : BufTy).Contents (Elt F)),
    ternary main_v110 main_v112 main_v3 main_v113 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v113 main_v114 (broadcastInDim S600000x1 ![0] bcast_S600000_S600000x1_0 : (⟨S600000, .i32⟩ : BufTy).Contents (Elt F) → (⟨S600000x1, .i32⟩ : BufTy).Contents (Elt F)),
    binary main_v101 main_v114 main_v115 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v108 main_v115 main_v116 (mulf : (⟨S600000, .f32⟩ : BufTy).Contents (Elt F) → (⟨S600000, .f32⟩ : BufTy).Contents (Elt F) → (⟨S600000, .f32⟩ : BufTy).Contents (Elt F)),
    nullary main_c_25 (constantI S_ 32 0#32),
    unary main_c_25 main_v117 (broadcastInDim S600000 ![] bcast_S_S600000 : (⟨S_, .i32⟩ : BufTy).Contents (Elt F) → (⟨S600000, .i32⟩ : BufTy).Contents (Elt F)),
    binary main_v1 main_v117 main_v118 (cmpi .slt : (⟨S600000, .i32⟩ : BufTy).Contents (Elt F) → (⟨S600000, .i32⟩ : BufTy).Contents (Elt F) → (⟨S600000, .i1⟩ : BufTy).Contents (Elt F)),
    nullary main_c_26 (constantI S_ 32 50000#32),
    unary main_c_26 main_v119 (broadcastInDim S600000 ![] bcast_S_S600000 : (⟨S_, .i32⟩ : BufTy).Contents (Elt F) → (⟨S600000, .i32⟩ : BufTy).Contents (Elt F)),
    binary main_v1 main_v119 main_v120 (addi : (⟨S600000, .i32⟩ : BufTy).Contents (Elt F) → (⟨S600000, .i32⟩ : BufTy).Contents (Elt F) → (⟨S600000, .i32⟩ : BufTy).Contents (Elt F)),
    ternary main_v118 main_v120 main_v1 main_v121 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v121 main_v122 (broadcastInDim S600000x1 ![0] bcast_S600000_S600000x1_0 : (⟨S600000, .i32⟩ : BufTy).Contents (Elt F) → (⟨S600000x1, .i32⟩ : BufTy).Contents (Elt F)),
    binary main_v94 main_v122 main_v123 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    unary main_v116 main_v124 (broadcastInDim S600000x1 ![0] bcast_S600000_S600000x1_0 : (⟨S600000, .f32⟩ : BufTy).Contents (Elt F) → (⟨S600000x1, .f32⟩ : BufTy).Contents (Elt F)),
    unary main_v124 main_v125 (broadcastInDim S600000x64 ![0, 1] bcast_S600000x1_S600000x64_0_1 : (⟨S600000x1, .f32⟩ : BufTy).Contents (Elt F) → (⟨S600000x64, .f32⟩ : BufTy).Contents (Elt F)),
    binary main_v123 main_v125 main_v126 (mulf : (⟨S600000x64, .f32⟩ : BufTy).Contents (Elt F) → (⟨S600000x64, .f32⟩ : BufTy).Contents (Elt F) → (⟨S600000x64, .f32⟩ : BufTy).Contents (Elt F)),
    nullary main_cst_27 (constant S_ .f32 0x00000000#32),
    unary main_cst_27 main_v127 (broadcastInDim S50000x64 ![] bcast_S_S50000x64 : (⟨S_, .f32⟩ : BufTy).Contents (Elt F) → (⟨S50000x64, .f32⟩ : BufTy).Contents (Elt F)),
    unary main_v3 main_v128 (broadcastInDim S600000x1 ![0] bcast_S600000_S600000x1_0 : (⟨S600000, .i32⟩ : BufTy).Contents (Elt F) → (⟨S600000x1, .i32⟩ : BufTy).Contents (Elt F)),
    ternary main_v127 main_v128 main_v126 main_v129 ((fun x i u => Host.scatterAdd scatter_S50000x64_S600000x1_S600000x64_1_0_0_1 x i u) : (⟨S50000x64, .f32⟩ : BufTy).Contents (Elt F) → (⟨S600000x1, .i32⟩ : BufTy).Contents (Elt F) → (⟨S600000x64, .f32⟩ : BufTy).Contents (Elt F) → (⟨S50000x64, .f32⟩ : BufTy).Contents (Elt F)),
    binary main_v101 main_v101 main_v130 (mulf : (⟨S50000, .f32⟩ : BufTy).Contents (Elt F) → (⟨S50000, .f32⟩ : BufTy).Contents (Elt F) → (⟨S50000, .f32⟩ : BufTy).Contents (Elt F)),
    unary main_v130 main_v131 (broadcastInDim S50000x1 ![0] bcast_S50000_S50000x1_0 : (⟨S50000, .f32⟩ : BufTy).Contents (Elt F) → (⟨S50000x1, .f32⟩ : BufTy).Contents (Elt F)),
    unary main_v131 main_v132 (broadcastInDim S50000x64 ![0, 1] bcast_S50000x1_S50000x64_0_1 : (⟨S50000x1, .f32⟩ : BufTy).Contents (Elt F) → (⟨S50000x64, .f32⟩ : BufTy).Contents (Elt F)),
    binary main_v94 main_v132 main_v133 (mulf : (⟨S50000x64, .f32⟩ : BufTy).Contents (Elt F) → (⟨S50000x64, .f32⟩ : BufTy).Contents (Elt F) → (⟨S50000x64, .f32⟩ : BufTy).Contents (Elt F)),
    binary main_v129 main_v133 main_v134 (addf : (⟨S50000x64, .f32⟩ : BufTy).Contents (Elt F) → (⟨S50000x64, .f32⟩ : BufTy).Contents (Elt F) → (⟨S50000x64, .f32⟩ : BufTy).Contents (Elt F)),
    unary main_arg6 main_v135 (broadcastInDim S1x64 ![1] bcast_S64_S1x64_1 : (⟨S64, .f32⟩ : BufTy).Contents (Elt F) → (⟨S1x64, .f32⟩ : BufTy).Contents (Elt F)),
    unary main_v135 main_v136 (broadcastInDim S50000x64 ![0, 1] bcast_S1x64_S50000x64_0_1 : (⟨S1x64, .f32⟩ : BufTy).Contents (Elt F) → (⟨S50000x64, .f32⟩ : BufTy).Contents (Elt F)),
    binary main_v134 main_v136 main_v137 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0xFF800000#32),
    TRef.binary (TRef.of (T := ⟨S50000x64, .f32⟩) main_v137) (TRef.of (T := ⟨S_, .f32⟩) main_call2_cst) (TRef.of (T := ⟨S50000, .f32⟩) main_call2_v0) (fun x v => Host.reduce FloatOps.maximumf x v reducesTo_S50000x64_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x64, .f32⟩) main_call2_v4) (broadcastInDim S50000x64 ![0, 1] bcast_S50000x1_S50000x64_0_1),
    TRef.binary (TRef.of (T := ⟨S50000x64, .f32⟩) main_v137) (TRef.of (T := ⟨S50000x64, .f32⟩) main_call2_v4) (TRef.of (T := ⟨S50000x64, .f32⟩) main_call2_v5) subf,
    TRef.unary (TRef.of (T := ⟨S50000x64, .f32⟩) main_call2_v5) (TRef.of (T := ⟨S50000x64, .f32⟩) main_call2_v6) Host.exp,
    TRef.nullary (TRef.of (T := ⟨S_, .f32⟩) main_call2_cst_1) (constant S_ .f32 0x00000000#32),
    TRef.binary (TRef.of (T := ⟨S50000x64, .f32⟩) main_call2_v6) (TRef.of (T := ⟨S_, .f32⟩) main_call2_cst_1) (TRef.of (T := ⟨S50000, .f32⟩) main_call2_v7) (fun x v => Host.reduceAdd x v reducesTo_S50000x64_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x64, .f32⟩) main_call2_v10) (broadcastInDim S50000x64 ![0, 1] bcast_S50000x1_S50000x64_0_1),
    TRef.binary (TRef.of (T := ⟨S50000x64, .f32⟩) main_call2_v5) (TRef.of (T := ⟨S50000x64, .f32⟩) main_call2_v10) (TRef.of (T := ⟨S50000x64, .f32⟩) main_v138) subf ]

/-- The whole line. -/
abbrev ops : List (HloOp τ sig (Elt F)) := opsA ++ (opsB ++ opsC)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
set_option maxRecDepth 8192 in
theorem opsB_sub : (opsB : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
set_option maxRecDepth 8192 in
theorem opsC_sub : (opsC : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig :=
  Stretches.forall_append _ _ opsA_sub (Stretches.forall_append _ _ opsB_sub opsC_sub)

/-- No operation of a stretch allocates a buffer. -/
theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  rcases List.mem_append.mp h with h | h
  · exact opsA_fresh op h
  · rcases List.mem_append.mp h with h | h
    · exact opsB_fresh op h
    · exact opsC_fresh op h

/-- The memory after the whole line, stretch by stretch. -/
theorem after_ops (V : Valuation τ sig (Elt F)) : after ops V = after opsC (after opsB (after opsA V)) := by
  show after (opsA ++ (opsB ++ opsC)) V = _
  rw [Stretches.after_append, Stretches.after_append]

/-- From any memory with zero counters every weakly fair execution of @main terminates, and every buffer ends at the
    memory after the three stretches run from the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after opsC (after opsB (after opsA (launchContents m c))) (Proc.devRef .tc b) :=
  (θ_run defs _ _).mono (fun _ h c b => (h c b).trans (congrFun (after_ops (launchContents m c)) _))
    (run_seq scopedRefs_eq scopedSems_eq defs main (fun _ => ops) main_eq (fun _ => ops_sub) m ρ (fun _ => ops_fresh))

end Cert.ReferenceIdeal.Line

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibHostRows.lean ====
/-
  The host's reductions along the rows of a matrix, read at a row, on the extended reals and for any extents.

  A `stablehlo.reduce` over axis 1 of an [n, k] matrix whose body takes the larger of two values is, at row r, the
  fold of max from the initial value over the row's k entries; one whose body adds is the initial value plus the sum
  of the row's k entries.
-/
import Idealize.ShloMosaic.PureOps.Ideal.Laws
import Idealize.ShloMosaic.Lib.ValueIdx

noncomputable section

open scoped BigOperators

namespace Idealize.ShloMosaic.HostRows

open Idealize.ShloMosaic Idealize.ShloMosaic.ValueIdx

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- On the extended reals the float maximum is the order's. -/
theorem maximumf_eq_max : (FloatOps.maximumf (F := Ideal) (φ := .f32)) = (max : EReal → EReal → EReal) := by
  funext x y; rfl

/-- A host reduce with max over the columns of an `[n, k]` matrix, at row `r`: the fold of max over that row. -/
theorem reduce_max_rows_apply {n k : ℕ} (z : (⟨2, ![n, k]⟩ : Shape).Idx → EReal) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduce (max : EReal → EReal → EReal) z init h' hu (ix1 r)
      = (Finset.univ : Finset (Fin k)).fold max (init (Shape.Idx.first hu)) (fun c => z (ix2 r c)) :=
  (Host.reduce_eq_fold_single max z init h' h hu (ix1 r)).trans
    (Finset.fold_congr fun c _ => congrArg z (lift_rows h r c))

/-- A host reduce with add over the columns of an `[n, k]` matrix, at row `r`: the initial value plus the row's sum. -/
theorem reduceAdd_rows_apply {n k : ℕ} (x : FVec Ideal ⟨2, ![n, k]⟩ .f32) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduceAdd (F := Ideal) (φ := .f32) x init h' hu (ix1 r) = init (Shape.Idx.first hu) + ∑ c : Fin k, x (ix2 r c) := by
  show Ideal.hostReduceAdd h' x (init (Shape.Idx.first hu)) (ix1 r) = _
  rw [Ideal.hostReduceAdd_single h' h]
  exact congrArg (init (Shape.Idx.first hu) + ·) (Finset.sum_congr rfl fun c _ => congrArg x (lift_rows h r c))

end Idealize.ShloMosaic.HostRows

end
-- ==== Proof.RefLaws.lean ====
/-
  The reference's dense steps, as the host writes them, are the specification's.

  The host multiplies with `dot_general`, spreads the inverse degrees and the bias over the matrix by two
  `broadcast_in_dim` each, takes the rectifier against a spread zero, and for the last layer takes a row's maximum by
  a `reduce` from the least float (then once more the larger of that and the least float), subtracts it, sums the
  exponentials by a `reduce` from zero, and subtracts the logarithm. Read entry by entry on the extended reals these
  are the textbook product, the rectified layer and the logarithm of the softmax of the specification.
-/
import proofs.«134760_j77008763617446_2_alg».proof.Proof.Gen.ReferenceIdeal
import proofs.«134760_j77008763617446_2_alg».proof.Proof.Spec
import proofs.«134760_j77008763617446_2_alg».proof.Proof.LibContract
import proofs.«134760_j77008763617446_2_alg».proof.Proof.LibKeepdims
import proofs.«134760_j77008763617446_2_alg».proof.Proof.LibColumn
import proofs.«134760_j77008763617446_2_alg».proof.Proof.LibHostRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Dense

open Cert.ReferenceIdeal Cert.ReferenceIdeal.Facts₀ Cert.ReferenceIdeal.Facts Cert.GCN
open Idealize.ShloMosaic Idealize.ShloMosaic.ValueIdx

/-- The host's product of the features with a [128, 128] weight matrix. -/
def dot128 (x : FVec Ideal S50000x128 .f32) (w : FVec Ideal S128x128 .f32) : FVec Ideal S50000x128 .f32 :=
  Host.dotGeneral dot_S50000x128_S128x128_S50000x128_1_0_0_1_n_n none x w

theorem lhs_row128 (j : S50000x128.Idx) (q : dot_S50000x128_S128x128_S50000x128_1_0_0_1_n_n.contr.Idx) : (dot_S50000x128_S128x128_S50000x128_1_0_0_1_n_n.lhsIdx j q 0).val = (j 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

theorem rhs_col128 (j : S50000x128.Idx) (q : dot_S50000x128_S128x128_S50000x128_1_0_0_1_n_n.contr.Idx) : (dot_S50000x128_S128x128_S50000x128_1_0_0_1_n_n.rhsIdx j q 1).val = (j 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- On the extended reals the host's product is the textbook one. -/
theorem dot128_eq (x : FVec Ideal S50000x128 .f32) (w : FVec Ideal S128x128 .f32) :
    dot128 x w = lin (n := 50000) (K := 128) (d := 128) x w := by
  funext i
  unfold dot128 lin
  simp only [Host.dotGeneral]
  rw [Ideal.dotGeneral_apply]
  exact Contract2.sum_contr_eq_sum_fin dot_S50000x128_S128x128_S50000x128_1_0_0_1_n_n rfl rfl rfl rfl lhs_row128 rhs_col128 x w i

/-- The host's product of the features with a [128, 64] weight matrix. -/
def dot64 (x : FVec Ideal S50000x128 .f32) (w : FVec Ideal S128x64 .f32) : FVec Ideal S50000x64 .f32 :=
  Host.dotGeneral dot_S50000x128_S128x64_S50000x64_1_0_0_1_n_n none x w

theorem lhs_row64 (j : S50000x64.Idx) (q : dot_S50000x128_S128x64_S50000x64_1_0_0_1_n_n.contr.Idx) : (dot_S50000x128_S128x64_S50000x64_1_0_0_1_n_n.lhsIdx j q 0).val = (j 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl

theorem rhs_col64 (j : S50000x64.Idx) (q : dot_S50000x128_S128x64_S50000x64_1_0_0_1_n_n.contr.Idx) : (dot_S50000x128_S128x64_S50000x64_1_0_0_1_n_n.rhsIdx j q 1).val = (j 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- On the extended reals the host's product is the textbook one. -/
theorem dot64_eq (x : FVec Ideal S50000x128 .f32) (w : FVec Ideal S128x64 .f32) :
    dot64 x w = lin (n := 50000) (K := 128) (d := 64) x w := by
  funext i
  unfold dot64 lin
  simp only [Host.dotGeneral]
  rw [Ideal.dotGeneral_apply]
  exact Contract2.sum_contr_eq_sum_fin dot_S50000x128_S128x64_S50000x64_1_0_0_1_n_n rfl rfl rfl rfl lhs_row64 rhs_col64 x w i

/-- The host's pre-activation over 128 features: the aggregated array plus the product scaled by the inverse degrees
    (a vector spread along the rows) plus the bias (a vector spread down the columns). -/
def preHost128 (agg h : FVec Ideal S50000x128 .f32) (dd : FVec Ideal S50000 .f32) (b : FVec Ideal S128 .f32) : FVec Ideal S50000x128 .f32 :=
  addf (addf agg (mulf h (broadcastInDim S50000x128 ![0, 1] bcast_S50000x1_S50000x128_0_1 (broadcastInDim S50000x1 ![0] bcast_S50000_S50000x1_0 dd))))
    (broadcastInDim S50000x128 ![0, 1] bcast_S1x128_S50000x128_0_1 (broadcastInDim S1x128 ![1] bcast_S128_S1x128_1 b))

/-- Entry by entry it is the specification's, the inverse degrees read as a column and the bias as a row. -/
theorem preHost128_apply (agg h : FVec Ideal S50000x128 .f32) (dd : FVec Ideal S50000 .f32) (b : FVec Ideal S128 .f32)
    (hc : S50000.ShapeCasts S50000x1) (hb : S128.ShapeCasts S1x128) (r : Fin 50000) (q : Fin 128) :
    preHost128 agg h dd b (ix2 r q) = pre (n := 50000) (d := 128) agg h (shapeCast S50000x1 dd hc) (shapeCast S1x128 b hb) (ix2 r q) := by
  unfold preHost128 pre
  show agg (ix2 r q) + h (ix2 r q) * _ + _ = agg (ix2 r q) + h (ix2 r q) * _ + _
  rw [Keepdims.rows_apply, Keepdims.cols_apply]
  refine congrArg₂ (· + ·) (congrArg₂ (· + ·) rfl (congrArg₂ (· * ·) rfl ?_)) ?_
  · exact (shapeCast_a_a1_apply dd hc r (0 : Fin 1)).symm
  · exact (shapeCast_a_1a_apply b hb (0 : Fin 1) q).symm

/-- The host's pre-activation over 64 features: the aggregated array plus the product scaled by the inverse degrees
    (a vector spread along the rows) plus the bias (a vector spread down the columns). -/
def preHost64 (agg h : FVec Ideal S50000x64 .f32) (dd : FVec Ideal S50000 .f32) (b : FVec Ideal S64 .f32) : FVec Ideal S50000x64 .f32 :=
  addf (addf agg (mulf h (broadcastInDim S50000x64 ![0, 1] bcast_S50000x1_S50000x64_0_1 (broadcastInDim S50000x1 ![0] bcast_S50000_S50000x1_0 dd))))
    (broadcastInDim S50000x64 ![0, 1] bcast_S1x64_S50000x64_0_1 (broadcastInDim S1x64 ![1] bcast_S64_S1x64_1 b))

/-- Entry by entry it is the specification's, the inverse degrees read as a column and the bias as a row. -/
theorem preHost64_apply (agg h : FVec Ideal S50000x64 .f32) (dd : FVec Ideal S50000 .f32) (b : FVec Ideal S64 .f32)
    (hc : S50000.ShapeCasts S50000x1) (hb : S64.ShapeCasts S1x64) (r : Fin 50000) (q : Fin 64) :
    preHost64 agg h dd b (ix2 r q) = pre (n := 50000) (d := 64) agg h (shapeCast S50000x1 dd hc) (shapeCast S1x64 b hb) (ix2 r q) := by
  unfold preHost64 pre
  show agg (ix2 r q) + h (ix2 r q) * _ + _ = agg (ix2 r q) + h (ix2 r q) * _ + _
  rw [Keepdims.rows_apply, Keepdims.cols_apply]
  refine congrArg₂ (· + ·) (congrArg₂ (· + ·) rfl (congrArg₂ (· * ·) rfl ?_)) ?_
  · exact (shapeCast_a_a1_apply dd hc r (0 : Fin 1)).symm
  · exact (shapeCast_a_1a_apply b hb (0 : Fin 1) q).symm

/-- The host's rectified layer: the larger of the pre-activation and a spread zero. -/
def hiddenHost (agg h : FVec Ideal S50000x128 .f32) (dd : FVec Ideal S50000 .f32) (b : FVec Ideal S128 .f32) : FVec Ideal S50000x128 .f32 :=
  maximumf (preHost128 agg h dd b) (broadcastInDim S50000x128 ![] bcast_S_S50000x128 (constant S_ .f32 0x00000000#32))

theorem hiddenHost_eq (agg h : FVec Ideal S50000x128 .f32) (dd : FVec Ideal S50000 .f32) (b : FVec Ideal S128 .f32)
    (hc : S50000.ShapeCasts S50000x1) (hb : S128.ShapeCasts S1x128) :
    hiddenHost agg h dd b = relu (n := 50000) (d := 128) agg h (shapeCast S50000x1 dd hc) (shapeCast S1x128 b hb) := by
  funext i
  obtain ⟨r, q, rfl⟩ : ∃ (r : Fin 50000) (q : Fin 128), i = ix2 r q := ⟨i 0, i 1, eq_ix2 i⟩
  unfold hiddenHost relu
  show max (preHost128 agg h dd b (ix2 r q)) _ = _
  rw [preHost128_apply agg h dd b hc hb]
  rfl

/-- A column [n, 1] spread along the rows of an [n, d] matrix reads, at (r, q), the column's entry of row r. -/
theorem spread_apply {a b : Nat} (h2 : (⟨2, ![a, 1]⟩ : Shape).BroadcastsInDim ⟨2, ![a, b]⟩ ![0, 1])
    (v : (⟨2, ![a, 1]⟩ : Shape).Idx → EReal) (i : Fin a) (j : Fin b) :
    broadcastInDim (⟨2, ![a, b]⟩ : Shape) ![0, 1] h2 v (ix2 i j) = v (ix2 i (0 : Fin 1)) := by
  refine broadcastInDim_apply _ h2 v (ix2 i j) (ix2 i (0 : Fin 1)) (fun x => ?_)
  match x with
  | ⟨0, _⟩ =>
    show i.val = if a = 1 then 0 else i.val
    split_ifs with h
    · have := i.isLt; omega
    · rfl
  | ⟨1, _⟩ =>
    show 0 = if (1 : Nat) = 1 then 0 else j.val
    rw [if_pos rfl]

/-- The host's row maximum: the larger of the least float and the `reduce` of max from the least float. -/
def rowMaxHost (z : FVec Ideal S50000x64 .f32) : FVec Ideal S50000 .f32 :=
  maximumf (broadcastInDim S50000 ![] bcast_S_S50000 (constant S_ .f32 0xFF800000#32))
    (Host.reduce FloatOps.maximumf z (constant S_ .f32 0xFF800000#32) reducesTo_S50000x64_S50000_d1 h_S_)

theorem rowMaxHost_apply (z : FVec Ideal S50000x64 .f32) (r : Fin 50000) :
    rowMaxHost z (ix1 r) = rowMax (n := 50000) (d := 64) z r := by
  have hred : S50000x64.Reduces [1] S50000 := by decide
  have e0 : Host.reduce (FloatOps.maximumf (F := Ideal) (φ := .f32)) z (constant (F := Ideal) S_ .f32 0xFF800000#32) reducesTo_S50000x64_S50000_d1 h_S_
      = Host.reduce (max : EReal → EReal → EReal) z (constant (F := Ideal) S_ .f32 0xFF800000#32) reducesTo_S50000x64_S50000_d1 h_S_ :=
    congrArg (fun f => Host.reduce f z (constant (F := Ideal) S_ .f32 0xFF800000#32) reducesTo_S50000x64_S50000_d1 h_S_) HostRows.maximumf_eq_max
  have e := HostRows.reduce_max_rows_apply z (constant (F := Ideal) S_ .f32 0xFF800000#32) reducesTo_S50000x64_S50000_d1 hred h_S_ r
  unfold rowMaxHost rowMax
  rw [e0, maximumf_apply, e]
  exact max_eq_right ((Finset.le_fold_max _).mpr (Or.inl le_rfl))

/-- The host's last layer over 64 features. -/
def finalHost (agg h : FVec Ideal S50000x64 .f32) (dd : FVec Ideal S50000 .f32) (b : FVec Ideal S64 .f32) : FVec Ideal S50000x64 .f32 :=
  subf
    (subf (preHost64 agg h dd b)
      (broadcastInDim S50000x64 ![0, 1] bcast_S50000x1_S50000x64_0_1 (broadcastInDim S50000x1 ![0] bcast_S50000_S50000x1_0 (rowMaxHost (preHost64 agg h dd b)))))
    (broadcastInDim S50000x64 ![0, 1] bcast_S50000x1_S50000x64_0_1
      (Host.log (broadcastInDim S50000x1 ![0] bcast_S50000_S50000x1_0
        (Host.reduceAdd
          (Host.exp (subf (preHost64 agg h dd b)
            (broadcastInDim S50000x64 ![0, 1] bcast_S50000x1_S50000x64_0_1 (broadcastInDim S50000x1 ![0] bcast_S50000_S50000x1_0 (rowMaxHost (preHost64 agg h dd b))))))
          (constant S_ .f32 0x00000000#32) reducesTo_S50000x64_S50000_d1 h_S_))))

/-- The specification's last layer at (r, q), the row named. -/
theorem logSoftmax_apply {n d : ℕ} (agg h : Mat n d) (dinv2 : Mat n 1) (b : Mat 1 d) (r : Fin n) (q : Fin d) :
    logSoftmax agg h dinv2 b (ix2 r q) = (pre agg h dinv2 b (ix2 r q) - rowMax (pre agg h dinv2 b) r)
      - Ideal.log (∑ c : Fin d, Ideal.exp (pre agg h dinv2 b (ix2 r c) - rowMax (pre agg h dinv2 b) r)) := rfl

/-- The host's entrywise exponential and logarithm at an entry. -/
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

theorem finalHost_eq (agg h : FVec Ideal S50000x64 .f32) (dd : FVec Ideal S50000 .f32) (b : FVec Ideal S64 .f32)
    (hc : S50000.ShapeCasts S50000x1) (hb : S64.ShapeCasts S1x64) :
    finalHost agg h dd b = logSoftmax (n := 50000) (d := 64) agg h (shapeCast S50000x1 dd hc) (shapeCast S1x64 b hb) := by
  have hred : S50000x64.Reduces [1] S50000 := by decide
  have hzf : preHost64 agg h dd b = pre (n := 50000) (d := 64) agg h (shapeCast S50000x1 dd hc) (shapeCast S1x64 b hb) := by
    funext i
    obtain ⟨r, c, rfl⟩ : ∃ (r : Fin 50000) (c : Fin 64), i = ix2 r c := ⟨i 0, i 1, eq_ix2 i⟩
    exact preHost64_apply agg h dd b hc hb r c
  funext i
  obtain ⟨r, q, rfl⟩ : ∃ (r : Fin 50000) (q : Fin 64), i = ix2 r q := ⟨i 0, i 1, eq_ix2 i⟩
  unfold finalHost
  rw [hzf, logSoftmax_apply]
  generalize pre (n := 50000) (d := 64) agg h (shapeCast S50000x1 dd hc) (shapeCast S1x64 b hb) = P
  have hm : ∀ c : Fin 64, broadcastInDim S50000x64 ![0, 1] bcast_S50000x1_S50000x64_0_1 (broadcastInDim S50000x1 ![0] bcast_S50000_S50000x1_0
      (rowMaxHost P)) (ix2 r c) = rowMax (n := 50000) (d := 64) P r := fun c => by
    rw [Keepdims.rows_apply]
    exact rowMaxHost_apply P r
  rw [subf_apply, subf_apply, hm q, spread_apply, hostLog_apply, Keepdims.column_apply,
    HostRows.reduceAdd_rows_apply _ _ reducesTo_S50000x64_S50000_d1 hred h_S_ r, constant_apply, Ideal.ofBits_zero_f32, zero_add]
  refine congrArg (fun t => (P (ix2 r q) - rowMax (n := 50000) (d := 64) P r) - Ideal.log t) (Finset.sum_congr rfl fun c _ => ?_)
  rw [hostExp_apply, subf_apply, hm c]

end Cert.ReferenceIdeal.Dense

end
-- ==== Proof.RefChain.lean ====
/-
  The reference's result as the network's function of its arguments.

  Each of the three stretches is evaluated over an arbitrary starting memory. The first computes the edges' sources
  and targets and the first layer; the second and third each recompute the degrees and the edges' weights from the
  targets — the same functions of the edge list every time —, aggregate the product of the previous layer's output
  with their weights and apply their activation; a buffer a stretch does not write is carried over. Chained from
  the launch contents and read on the extended reals, the result buffer holds the network's function of the eight
  arguments.
-/
import proofs.«134760_j77008763617446_2_alg».proof.Proof.RefRun
import proofs.«134760_j77008763617446_2_alg».proof.Proof.RefLaws
import proofs.«134760_j77008763617446_2_alg».proof.Proof.Net

set_option maxRecDepth 16384

noncomputable section

namespace Cert.ReferenceIdeal.Chain

open Cert.ReferenceIdeal Cert.ReferenceIdeal.Facts₀ Cert.ReferenceIdeal.Facts Cert.ReferenceIdeal.Line Cert.ReferenceIdeal.Dense Cert.GCN Cert.KernelIdeal.Graph
open Idealize.ShloMosaic Idealize.ShloMosaic.TcCoe Idealize.ShloMosaic.StableHlo Idealize.SL.Sem

variable (U : Valuation τ sig (Elt Ideal))

/-! ## A called function's buffers

A buffer of a called function is read and written through a transport along the equation between its type and the
value's type; at a literal buffer the two types are the same and the transport is the identity. -/

theorem toBuf_main_call0_cst (v : (⟨S_, .f32⟩ : BufTy).Contents (Elt Ideal)) : (TRef.of (T := ⟨S_, .f32⟩) main_call0_cst).toBuf v = v := rfl
theorem ofBuf_main_call0_cst (v : main_call0_cst.ty.Contents (Elt Ideal)) : (TRef.of (T := ⟨S_, .f32⟩) main_call0_cst).ofBuf v = v := rfl
theorem toBuf_main_call0_v0 (v : (⟨S50000x128, .f32⟩ : BufTy).Contents (Elt Ideal)) : (TRef.of (T := ⟨S50000x128, .f32⟩) main_call0_v0).toBuf v = v := rfl
theorem ofBuf_main_call0_v0 (v : main_call0_v0.ty.Contents (Elt Ideal)) : (TRef.of (T := ⟨S50000x128, .f32⟩) main_call0_v0).ofBuf v = v := rfl
theorem toBuf_main_v47 (v : (⟨S50000x128, .f32⟩ : BufTy).Contents (Elt Ideal)) : (TRef.of (T := ⟨S50000x128, .f32⟩) main_v47).toBuf v = v := rfl
theorem ofBuf_main_v47 (v : main_v47.ty.Contents (Elt Ideal)) : (TRef.of (T := ⟨S50000x128, .f32⟩) main_v47).ofBuf v = v := rfl
theorem toBuf_main_v48 (v : (⟨S50000x128, .f32⟩ : BufTy).Contents (Elt Ideal)) : (TRef.of (T := ⟨S50000x128, .f32⟩) main_v48).toBuf v = v := rfl
theorem ofBuf_main_v48 (v : main_v48.ty.Contents (Elt Ideal)) : (TRef.of (T := ⟨S50000x128, .f32⟩) main_v48).ofBuf v = v := rfl
theorem toBuf_main_call1_cst (v : (⟨S_, .f32⟩ : BufTy).Contents (Elt Ideal)) : (TRef.of (T := ⟨S_, .f32⟩) main_call1_cst).toBuf v = v := rfl
theorem ofBuf_main_call1_cst (v : main_call1_cst.ty.Contents (Elt Ideal)) : (TRef.of (T := ⟨S_, .f32⟩) main_call1_cst).ofBuf v = v := rfl
theorem toBuf_main_call1_v0 (v : (⟨S50000x128, .f32⟩ : BufTy).Contents (Elt Ideal)) : (TRef.of (T := ⟨S50000x128, .f32⟩) main_call1_v0).toBuf v = v := rfl
theorem ofBuf_main_call1_v0 (v : main_call1_v0.ty.Contents (Elt Ideal)) : (TRef.of (T := ⟨S50000x128, .f32⟩) main_call1_v0).ofBuf v = v := rfl
theorem toBuf_main_v92 (v : (⟨S50000x128, .f32⟩ : BufTy).Contents (Elt Ideal)) : (TRef.of (T := ⟨S50000x128, .f32⟩) main_v92).toBuf v = v := rfl
theorem ofBuf_main_v92 (v : main_v92.ty.Contents (Elt Ideal)) : (TRef.of (T := ⟨S50000x128, .f32⟩) main_v92).ofBuf v = v := rfl
theorem toBuf_main_v93 (v : (⟨S50000x128, .f32⟩ : BufTy).Contents (Elt Ideal)) : (TRef.of (T := ⟨S50000x128, .f32⟩) main_v93).toBuf v = v := rfl
theorem ofBuf_main_v93 (v : main_v93.ty.Contents (Elt Ideal)) : (TRef.of (T := ⟨S50000x128, .f32⟩) main_v93).ofBuf v = v := rfl
theorem toBuf_main_call2_cst (v : (⟨S_, .f32⟩ : BufTy).Contents (Elt Ideal)) : (TRef.of (T := ⟨S_, .f32⟩) main_call2_cst).toBuf v = v := rfl
theorem ofBuf_main_call2_cst (v : main_call2_cst.ty.Contents (Elt Ideal)) : (TRef.of (T := ⟨S_, .f32⟩) main_call2_cst).ofBuf v = v := rfl
theorem toBuf_main_v137 (v : (⟨S50000x64, .f32⟩ : BufTy).Contents (Elt Ideal)) : (TRef.of (T := ⟨S50000x64, .f32⟩) main_v137).toBuf v = v := rfl
theorem ofBuf_main_v137 (v : main_v137.ty.Contents (Elt Ideal)) : (TRef.of (T := ⟨S50000x64, .f32⟩) main_v137).ofBuf v = v := rfl
theorem toBuf_main_call2_v0 (v : (⟨S50000, .f32⟩ : BufTy).Contents (Elt Ideal)) : (TRef.of (T := ⟨S50000, .f32⟩) main_call2_v0).toBuf v = v := rfl
theorem ofBuf_main_call2_v0 (v : main_call2_v0.ty.Contents (Elt Ideal)) : (TRef.of (T := ⟨S50000, .f32⟩) main_call2_v0).ofBuf v = v := rfl
theorem toBuf_main_call2_cst_0 (v : (⟨S_, .f32⟩ : BufTy).Contents (Elt Ideal)) : (TRef.of (T := ⟨S_, .f32⟩) main_call2_cst_0).toBuf v = v := rfl
theorem ofBuf_main_call2_cst_0 (v : main_call2_cst_0.ty.Contents (Elt Ideal)) : (TRef.of (T := ⟨S_, .f32⟩) main_call2_cst_0).ofBuf v = v := rfl
theorem toBuf_main_call2_v1 (v : (⟨S50000, .f32⟩ : BufTy).Contents (Elt Ideal)) : (TRef.of (T := ⟨S50000, .f32⟩) main_call2_v1).toBuf v = v := rfl
theorem ofBuf_main_call2_v1 (v : main_call2_v1.ty.Contents (Elt Ideal)) : (TRef.of (T := ⟨S50000, .f32⟩) main_call2_v1).ofBuf v = v := rfl
theorem toBuf_main_call2_v2 (v : (⟨S50000, .f32⟩ : BufTy).Contents (Elt Ideal)) : (TRef.of (T := ⟨S50000, .f32⟩) main_call2_v2).toBuf v = v := rfl
theorem ofBuf_main_call2_v2 (v : main_call2_v2.ty.Contents (Elt Ideal)) : (TRef.of (T := ⟨S50000, .f32⟩) main_call2_v2).ofBuf v = v := rfl
theorem toBuf_main_call2_v3 (v : (⟨S50000x1, .f32⟩ : BufTy).Contents (Elt Ideal)) : (TRef.of (T := ⟨S50000x1, .f32⟩) main_call2_v3).toBuf v = v := rfl
theorem ofBuf_main_call2_v3 (v : main_call2_v3.ty.Contents (Elt Ideal)) : (TRef.of (T := ⟨S50000x1, .f32⟩) main_call2_v3).ofBuf v = v := rfl
theorem toBuf_main_call2_v4 (v : (⟨S50000x64, .f32⟩ : BufTy).Contents (Elt Ideal)) : (TRef.of (T := ⟨S50000x64, .f32⟩) main_call2_v4).toBuf v = v := rfl
theorem ofBuf_main_call2_v4 (v : main_call2_v4.ty.Contents (Elt Ideal)) : (TRef.of (T := ⟨S50000x64, .f32⟩) main_call2_v4).ofBuf v = v := rfl
theorem toBuf_main_call2_v5 (v : (⟨S50000x64, .f32⟩ : BufTy).Contents (Elt Ideal)) : (TRef.of (T := ⟨S50000x64, .f32⟩) main_call2_v5).toBuf v = v := rfl
theorem ofBuf_main_call2_v5 (v : main_call2_v5.ty.Contents (Elt Ideal)) : (TRef.of (T := ⟨S50000x64, .f32⟩) main_call2_v5).ofBuf v = v := rfl
theorem toBuf_main_call2_v6 (v : (⟨S50000x64, .f32⟩ : BufTy).Contents (Elt Ideal)) : (TRef.of (T := ⟨S50000x64, .f32⟩) main_call2_v6).toBuf v = v := rfl
theorem ofBuf_main_call2_v6 (v : main_call2_v6.ty.Contents (Elt Ideal)) : (TRef.of (T := ⟨S50000x64, .f32⟩) main_call2_v6).ofBuf v = v := rfl
theorem toBuf_main_call2_cst_1 (v : (⟨S_, .f32⟩ : BufTy).Contents (Elt Ideal)) : (TRef.of (T := ⟨S_, .f32⟩) main_call2_cst_1).toBuf v = v := rfl
theorem ofBuf_main_call2_cst_1 (v : main_call2_cst_1.ty.Contents (Elt Ideal)) : (TRef.of (T := ⟨S_, .f32⟩) main_call2_cst_1).ofBuf v = v := rfl
theorem toBuf_main_call2_v7 (v : (⟨S50000, .f32⟩ : BufTy).Contents (Elt Ideal)) : (TRef.of (T := ⟨S50000, .f32⟩) main_call2_v7).toBuf v = v := rfl
theorem ofBuf_main_call2_v7 (v : main_call2_v7.ty.Contents (Elt Ideal)) : (TRef.of (T := ⟨S50000, .f32⟩) main_call2_v7).ofBuf v = v := rfl
theorem toBuf_main_call2_v8 (v : (⟨S50000x1, .f32⟩ : BufTy).Contents (Elt Ideal)) : (TRef.of (T := ⟨S50000x1, .f32⟩) main_call2_v8).toBuf v = v := rfl
theorem ofBuf_main_call2_v8 (v : main_call2_v8.ty.Contents (Elt Ideal)) : (TRef.of (T := ⟨S50000x1, .f32⟩) main_call2_v8).ofBuf v = v := rfl
theorem toBuf_main_call2_v9 (v : (⟨S50000x1, .f32⟩ : BufTy).Contents (Elt Ideal)) : (TRef.of (T := ⟨S50000x1, .f32⟩) main_call2_v9).toBuf v = v := rfl
theorem ofBuf_main_call2_v9 (v : main_call2_v9.ty.Contents (Elt Ideal)) : (TRef.of (T := ⟨S50000x1, .f32⟩) main_call2_v9).ofBuf v = v := rfl
theorem toBuf_main_call2_v10 (v : (⟨S50000x64, .f32⟩ : BufTy).Contents (Elt Ideal)) : (TRef.of (T := ⟨S50000x64, .f32⟩) main_call2_v10).toBuf v = v := rfl
theorem ofBuf_main_call2_v10 (v : main_call2_v10.ty.Contents (Elt Ideal)) : (TRef.of (T := ⟨S50000x64, .f32⟩) main_call2_v10).ofBuf v = v := rfl
theorem toBuf_main_v138 (v : (⟨S50000x64, .f32⟩ : BufTy).Contents (Elt Ideal)) : (TRef.of (T := ⟨S50000x64, .f32⟩) main_v138).toBuf v = v := rfl
theorem ofBuf_main_v138 (v : main_v138.ty.Contents (Elt Ideal)) : (TRef.of (T := ⟨S50000x64, .f32⟩) main_v138).ofBuf v = v := rfl

/-! ## The first stretch -/

theorem A_v1 : after opsA U (Proc.devRef .tc main_v1) = srcOf (U (Proc.devRef .tc main_arg7)) := by
  after_results_simp
  rfl

theorem A_v3 : after opsA U (Proc.devRef .tc main_v3) = dstOf (U (Proc.devRef .tc main_arg7)) := by
  after_results_simp
  rfl

theorem A_v48 : after opsA U (Proc.devRef .tc main_v48) = hiddenHost (agg128 (dot128 (U (Proc.devRef .tc main_arg0)) (U (Proc.devRef .tc main_arg1))) (srcOf (U (Proc.devRef .tc main_arg7))) (dstOf (U (Proc.devRef .tc main_arg7))) (normOf (srcOf (U (Proc.devRef .tc main_arg7))) (dstOf (U (Proc.devRef .tc main_arg7))))) (dot128 (U (Proc.devRef .tc main_arg0)) (U (Proc.devRef .tc main_arg1))) (dinv2Of (dstOf (U (Proc.devRef .tc main_arg7)))) (U (Proc.devRef .tc main_arg2)) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ↓toBuf_main_call0_cst, ↓ofBuf_main_call0_cst, ↓toBuf_main_call0_v0, ↓ofBuf_main_call0_v0, ↓toBuf_main_v47, ↓ofBuf_main_v47, ↓toBuf_main_v48, ↓ofBuf_main_v48, ↓toBuf_main_call1_cst, ↓ofBuf_main_call1_cst, ↓toBuf_main_call1_v0, ↓ofBuf_main_call1_v0, ↓toBuf_main_v92, ↓ofBuf_main_v92, ↓toBuf_main_v93, ↓ofBuf_main_v93, ↓toBuf_main_call2_cst, ↓ofBuf_main_call2_cst, ↓toBuf_main_v137, ↓ofBuf_main_v137, ↓toBuf_main_call2_v0, ↓ofBuf_main_call2_v0, ↓toBuf_main_call2_cst_0, ↓ofBuf_main_call2_cst_0, ↓toBuf_main_call2_v1, ↓ofBuf_main_call2_v1, ↓toBuf_main_call2_v2, ↓ofBuf_main_call2_v2, ↓toBuf_main_call2_v3, ↓ofBuf_main_call2_v3, ↓toBuf_main_call2_v4, ↓ofBuf_main_call2_v4, ↓toBuf_main_call2_v5, ↓ofBuf_main_call2_v5, ↓toBuf_main_call2_v6, ↓ofBuf_main_call2_v6, ↓toBuf_main_call2_cst_1, ↓ofBuf_main_call2_cst_1, ↓toBuf_main_call2_v7, ↓ofBuf_main_call2_v7, ↓toBuf_main_call2_v8, ↓ofBuf_main_call2_v8, ↓toBuf_main_call2_v9, ↓ofBuf_main_call2_v9, ↓toBuf_main_call2_v10, ↓ofBuf_main_call2_v10, ↓toBuf_main_v138, ↓ofBuf_main_v138]
  rfl

theorem A_arg3 : after opsA U (Proc.devRef .tc main_arg3) = U (Proc.devRef .tc main_arg3) := by
  after_results_simp

theorem A_arg4 : after opsA U (Proc.devRef .tc main_arg4) = U (Proc.devRef .tc main_arg4) := by
  after_results_simp

theorem A_arg5 : after opsA U (Proc.devRef .tc main_arg5) = U (Proc.devRef .tc main_arg5) := by
  after_results_simp

theorem A_arg6 : after opsA U (Proc.devRef .tc main_arg6) = U (Proc.devRef .tc main_arg6) := by
  after_results_simp

/-! ## The second stretch -/

theorem B_v93 : after opsB U (Proc.devRef .tc main_v93) = hiddenHost (agg128 (dot128 (U (Proc.devRef .tc main_v48)) (U (Proc.devRef .tc main_arg3))) (U (Proc.devRef .tc main_v1)) (U (Proc.devRef .tc main_v3)) (normOf (U (Proc.devRef .tc main_v1)) (U (Proc.devRef .tc main_v3)))) (dot128 (U (Proc.devRef .tc main_v48)) (U (Proc.devRef .tc main_arg3))) (dinv2Of (U (Proc.devRef .tc main_v3))) (U (Proc.devRef .tc main_arg4)) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ↓toBuf_main_call0_cst, ↓ofBuf_main_call0_cst, ↓toBuf_main_call0_v0, ↓ofBuf_main_call0_v0, ↓toBuf_main_v47, ↓ofBuf_main_v47, ↓toBuf_main_v48, ↓ofBuf_main_v48, ↓toBuf_main_call1_cst, ↓ofBuf_main_call1_cst, ↓toBuf_main_call1_v0, ↓ofBuf_main_call1_v0, ↓toBuf_main_v92, ↓ofBuf_main_v92, ↓toBuf_main_v93, ↓ofBuf_main_v93, ↓toBuf_main_call2_cst, ↓ofBuf_main_call2_cst, ↓toBuf_main_v137, ↓ofBuf_main_v137, ↓toBuf_main_call2_v0, ↓ofBuf_main_call2_v0, ↓toBuf_main_call2_cst_0, ↓ofBuf_main_call2_cst_0, ↓toBuf_main_call2_v1, ↓ofBuf_main_call2_v1, ↓toBuf_main_call2_v2, ↓ofBuf_main_call2_v2, ↓toBuf_main_call2_v3, ↓ofBuf_main_call2_v3, ↓toBuf_main_call2_v4, ↓ofBuf_main_call2_v4, ↓toBuf_main_call2_v5, ↓ofBuf_main_call2_v5, ↓toBuf_main_call2_v6, ↓ofBuf_main_call2_v6, ↓toBuf_main_call2_cst_1, ↓ofBuf_main_call2_cst_1, ↓toBuf_main_call2_v7, ↓ofBuf_main_call2_v7, ↓toBuf_main_call2_v8, ↓ofBuf_main_call2_v8, ↓toBuf_main_call2_v9, ↓ofBuf_main_call2_v9, ↓toBuf_main_call2_v10, ↓ofBuf_main_call2_v10, ↓toBuf_main_v138, ↓ofBuf_main_v138]
  rfl

theorem B_v1 : after opsB U (Proc.devRef .tc main_v1) = U (Proc.devRef .tc main_v1) := by
  after_results_simp

theorem B_v3 : after opsB U (Proc.devRef .tc main_v3) = U (Proc.devRef .tc main_v3) := by
  after_results_simp

theorem B_arg5 : after opsB U (Proc.devRef .tc main_arg5) = U (Proc.devRef .tc main_arg5) := by
  after_results_simp

theorem B_arg6 : after opsB U (Proc.devRef .tc main_arg6) = U (Proc.devRef .tc main_arg6) := by
  after_results_simp

/-! ## The third stretch -/

theorem C_v138 : after opsC U (Proc.devRef .tc main_v138) = finalHost (agg64 (dot64 (U (Proc.devRef .tc main_v93)) (U (Proc.devRef .tc main_arg5))) (U (Proc.devRef .tc main_v1)) (U (Proc.devRef .tc main_v3)) (normOf (U (Proc.devRef .tc main_v1)) (U (Proc.devRef .tc main_v3)))) (dot64 (U (Proc.devRef .tc main_v93)) (U (Proc.devRef .tc main_arg5))) (dinv2Of (U (Proc.devRef .tc main_v3))) (U (Proc.devRef .tc main_arg6)) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ↓toBuf_main_call0_cst, ↓ofBuf_main_call0_cst, ↓toBuf_main_call0_v0, ↓ofBuf_main_call0_v0, ↓toBuf_main_v47, ↓ofBuf_main_v47, ↓toBuf_main_v48, ↓ofBuf_main_v48, ↓toBuf_main_call1_cst, ↓ofBuf_main_call1_cst, ↓toBuf_main_call1_v0, ↓ofBuf_main_call1_v0, ↓toBuf_main_v92, ↓ofBuf_main_v92, ↓toBuf_main_v93, ↓ofBuf_main_v93, ↓toBuf_main_call2_cst, ↓ofBuf_main_call2_cst, ↓toBuf_main_v137, ↓ofBuf_main_v137, ↓toBuf_main_call2_v0, ↓ofBuf_main_call2_v0, ↓toBuf_main_call2_cst_0, ↓ofBuf_main_call2_cst_0, ↓toBuf_main_call2_v1, ↓ofBuf_main_call2_v1, ↓toBuf_main_call2_v2, ↓ofBuf_main_call2_v2, ↓toBuf_main_call2_v3, ↓ofBuf_main_call2_v3, ↓toBuf_main_call2_v4, ↓ofBuf_main_call2_v4, ↓toBuf_main_call2_v5, ↓ofBuf_main_call2_v5, ↓toBuf_main_call2_v6, ↓ofBuf_main_call2_v6, ↓toBuf_main_call2_cst_1, ↓ofBuf_main_call2_cst_1, ↓toBuf_main_call2_v7, ↓ofBuf_main_call2_v7, ↓toBuf_main_call2_v8, ↓ofBuf_main_call2_v8, ↓toBuf_main_call2_v9, ↓ofBuf_main_call2_v9, ↓toBuf_main_call2_v10, ↓ofBuf_main_call2_v10, ↓toBuf_main_v138, ↓ofBuf_main_v138]
  rfl

/-! ## The arguments are never written -/

theorem A_arg0 : after opsA U (Proc.devRef .tc main_arg0) = U (Proc.devRef .tc main_arg0) := by
  after_results_simp

theorem A_arg1 : after opsA U (Proc.devRef .tc main_arg1) = U (Proc.devRef .tc main_arg1) := by
  after_results_simp

theorem A_arg2 : after opsA U (Proc.devRef .tc main_arg2) = U (Proc.devRef .tc main_arg2) := by
  after_results_simp

theorem A_arg7 : after opsA U (Proc.devRef .tc main_arg7) = U (Proc.devRef .tc main_arg7) := by
  after_results_simp

theorem B_arg0 : after opsB U (Proc.devRef .tc main_arg0) = U (Proc.devRef .tc main_arg0) := by
  after_results_simp

theorem B_arg1 : after opsB U (Proc.devRef .tc main_arg1) = U (Proc.devRef .tc main_arg1) := by
  after_results_simp

theorem B_arg2 : after opsB U (Proc.devRef .tc main_arg2) = U (Proc.devRef .tc main_arg2) := by
  after_results_simp

theorem B_arg3 : after opsB U (Proc.devRef .tc main_arg3) = U (Proc.devRef .tc main_arg3) := by
  after_results_simp

theorem B_arg4 : after opsB U (Proc.devRef .tc main_arg4) = U (Proc.devRef .tc main_arg4) := by
  after_results_simp

theorem B_arg7 : after opsB U (Proc.devRef .tc main_arg7) = U (Proc.devRef .tc main_arg7) := by
  after_results_simp

theorem C_arg0 : after opsC U (Proc.devRef .tc main_arg0) = U (Proc.devRef .tc main_arg0) := by
  after_results_simp

theorem C_arg1 : after opsC U (Proc.devRef .tc main_arg1) = U (Proc.devRef .tc main_arg1) := by
  after_results_simp

theorem C_arg2 : after opsC U (Proc.devRef .tc main_arg2) = U (Proc.devRef .tc main_arg2) := by
  after_results_simp

theorem C_arg3 : after opsC U (Proc.devRef .tc main_arg3) = U (Proc.devRef .tc main_arg3) := by
  after_results_simp

theorem C_arg4 : after opsC U (Proc.devRef .tc main_arg4) = U (Proc.devRef .tc main_arg4) := by
  after_results_simp

theorem C_arg5 : after opsC U (Proc.devRef .tc main_arg5) = U (Proc.devRef .tc main_arg5) := by
  after_results_simp

theorem C_arg6 : after opsC U (Proc.devRef .tc main_arg6) = U (Proc.devRef .tc main_arg6) := by
  after_results_simp

theorem C_arg7 : after opsC U (Proc.devRef .tc main_arg7) = U (Proc.devRef .tc main_arg7) := by
  after_results_simp

/-! ## The three stretches chained -/

theorem kept_arg0 (m : (ℓ : Loc nD τ sig) → Buf (Elt Ideal) ℓ) (c : Dev nD) :
    after opsC (after opsB (after opsA (launchContents m c))) (Proc.devRef .tc main_arg0) = m ((c.tc : Thread nD τ).loc main_arg0) := by
  rw [C_arg0, B_arg0, A_arg0]
theorem kept_arg1 (m : (ℓ : Loc nD τ sig) → Buf (Elt Ideal) ℓ) (c : Dev nD) :
    after opsC (after opsB (after opsA (launchContents m c))) (Proc.devRef .tc main_arg1) = m ((c.tc : Thread nD τ).loc main_arg1) := by
  rw [C_arg1, B_arg1, A_arg1]
theorem kept_arg2 (m : (ℓ : Loc nD τ sig) → Buf (Elt Ideal) ℓ) (c : Dev nD) :
    after opsC (after opsB (after opsA (launchContents m c))) (Proc.devRef .tc main_arg2) = m ((c.tc : Thread nD τ).loc main_arg2) := by
  rw [C_arg2, B_arg2, A_arg2]
theorem kept_arg3 (m : (ℓ : Loc nD τ sig) → Buf (Elt Ideal) ℓ) (c : Dev nD) :
    after opsC (after opsB (after opsA (launchContents m c))) (Proc.devRef .tc main_arg3) = m ((c.tc : Thread nD τ).loc main_arg3) := by
  rw [C_arg3, B_arg3, A_arg3]
theorem kept_arg4 (m : (ℓ : Loc nD τ sig) → Buf (Elt Ideal) ℓ) (c : Dev nD) :
    after opsC (after opsB (after opsA (launchContents m c))) (Proc.devRef .tc main_arg4) = m ((c.tc : Thread nD τ).loc main_arg4) := by
  rw [C_arg4, B_arg4, A_arg4]
theorem kept_arg5 (m : (ℓ : Loc nD τ sig) → Buf (Elt Ideal) ℓ) (c : Dev nD) :
    after opsC (after opsB (after opsA (launchContents m c))) (Proc.devRef .tc main_arg5) = m ((c.tc : Thread nD τ).loc main_arg5) := by
  rw [C_arg5, B_arg5, A_arg5]
theorem kept_arg6 (m : (ℓ : Loc nD τ sig) → Buf (Elt Ideal) ℓ) (c : Dev nD) :
    after opsC (after opsB (after opsA (launchContents m c))) (Proc.devRef .tc main_arg6) = m ((c.tc : Thread nD τ).loc main_arg6) := by
  rw [C_arg6, B_arg6, A_arg6]
theorem kept_arg7 (m : (ℓ : Loc nD τ sig) → Buf (Elt Ideal) ℓ) (c : Dev nD) :
    after opsC (after opsB (after opsA (launchContents m c))) (Proc.devRef .tc main_arg7) = m ((c.tc : Thread nD τ).loc main_arg7) := by
  rw [C_arg7, B_arg7, A_arg7]

/-- The result buffer after the three stretches from the launch contents is the network of the arguments. -/
theorem result (m : (ℓ : Loc nD τ sig) → Buf (Elt Ideal) ℓ) (c : Dev nD) :
    after opsC (after opsB (after opsA (launchContents m c))) (Proc.devRef .tc main_v138)
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [C_v138, B_v93, B_v1, B_v3, B_arg5, B_arg6, A_v48, A_v1, A_v3, A_arg3, A_arg4, A_arg5, A_arg6]
  rw [dot128_eq, dot128_eq, dot64_eq,
    hiddenHost_eq _ _ _ _ Cert.KernelIdeal.Facts₀.shapeCasts_S50000_S50000x1 Cert.KernelIdeal.Facts₀.shapeCasts_S128_S1x128,
    hiddenHost_eq _ _ _ _ Cert.KernelIdeal.Facts₀.shapeCasts_S50000_S50000x1 Cert.KernelIdeal.Facts₀.shapeCasts_S128_S1x128,
    finalHost_eq _ _ _ _ Cert.KernelIdeal.Facts₀.shapeCasts_S50000_S50000x1 Cert.KernelIdeal.Facts₀.shapeCasts_S64_S1x64]
  unfold Cert.GCN.net Cert.GCN.final Cert.GCN.hidden Cert.GCN.dinv2Col
  rfl

end Cert.ReferenceIdeal.Chain

end
-- ==== Proof.lean ====
/-
  The certificate of a three-layer graph convolution network whose dense steps run as node-tiled kernels.

  The kernel computes, for 50000 nodes and 600000 edges, three graph convolutions: each multiplies the node features
  by a weight matrix in a node-tiled call (2000 rows per grid point), gathers and sums the products along the edges
  on the host, and finishes in a second node-tiled call that adds the node's own product scaled by its inverse
  degree and the bias and applies the rectifier (layers 1 and 2) or the logarithm of the softmax along the row
  (layer 3). It narrows the products and the weights to a 16-bit float format between the steps and computes the
  degrees and the edges' weights once; the reference works in one format throughout and recomputes them per layer.
  On the extended reals a change of format is the identity and the degrees are the same function of the edge list
  each time, so both programs compute one function of the eight arguments: `Cert.GCN.net`.

  The kernel's side: its run with the result named (`Result.run_result`), the contents of the buffers followed
  through the ten segments (`Chain.W10_v81`), each call's result array being the closed form of its blocks. The
  reference's side: its line of host operations run in three stretches (`Line.run`), each stretch evaluated and read
  entry by entry (`Chain.result`). No law of arithmetic beyond reading sums and maxima at an index joins the two, so
  the precondition is never opened. The ideal pass rewrote no operation: `preserves` is trivial.
-/
import proofs.«134760_j77008763617446_2_alg».proof.Defs
import proofs.«134760_j77008763617446_2_alg».proof.Proof.Gen.Kernel
import proofs.«134760_j77008763617446_2_alg».proof.Proof.Gen.Kernel.Skeleton
import proofs.«134760_j77008763617446_2_alg».proof.Proof.Gen.Kernel.Launch
import proofs.«134760_j77008763617446_2_alg».proof.Proof.Gen.Kernel.Points
import proofs.«134760_j77008763617446_2_alg».proof.Proof.Gen.Kernel.Frame
import proofs.«134760_j77008763617446_2_alg».proof.Proof.Gen.KernelIdeal
import proofs.«134760_j77008763617446_2_alg».proof.Proof.Gen.KernelIdeal.Skeleton
import proofs.«134760_j77008763617446_2_alg».proof.Proof.Gen.KernelIdeal.Launch
import proofs.«134760_j77008763617446_2_alg».proof.Proof.Gen.KernelIdeal.Points
import proofs.«134760_j77008763617446_2_alg».proof.Proof.Gen.KernelIdeal.Frame
import proofs.«134760_j77008763617446_2_alg».proof.Proof.Gen.ReferenceIdeal
import proofs.«134760_j77008763617446_2_alg».proof.Proof.Gen.Pre_finite_inputs
import proofs.«134760_j77008763617446_2_alg».proof.Proof.KRun
import proofs.«134760_j77008763617446_2_alg».proof.Proof.KChain
import proofs.«134760_j77008763617446_2_alg».proof.Proof.RefRun
import proofs.«134760_j77008763617446_2_alg».proof.Proof.RefChain
import Idealize.ShloMosaic.Adequacy
import Idealize.ShloMosaic.Init

noncomputable section

namespace Cert.Proof

open Idealize.ShloMosaic Idealize.SL.Sem Idealize.ShloMosaic.StableHlo

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: no operation of its line writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    ⟨(h c Cert.ReferenceIdeal.main_arg0).trans (Cert.ReferenceIdeal.Chain.kept_arg0 m c),
     (h c Cert.ReferenceIdeal.main_arg1).trans (Cert.ReferenceIdeal.Chain.kept_arg1 m c),
     (h c Cert.ReferenceIdeal.main_arg2).trans (Cert.ReferenceIdeal.Chain.kept_arg2 m c),
     (h c Cert.ReferenceIdeal.main_arg3).trans (Cert.ReferenceIdeal.Chain.kept_arg3 m c),
     (h c Cert.ReferenceIdeal.main_arg4).trans (Cert.ReferenceIdeal.Chain.kept_arg4 m c),
     (h c Cert.ReferenceIdeal.main_arg5).trans (Cert.ReferenceIdeal.Chain.kept_arg5 m c),
     (h c Cert.ReferenceIdeal.main_arg6).trans (Cert.ReferenceIdeal.Chain.kept_arg6 m c),
     (h c Cert.ReferenceIdeal.main_arg7).trans (Cert.ReferenceIdeal.Chain.kept_arg7 m c)⟩)
    (Cert.ReferenceIdeal.Line.run (F := Ideal) m ρ)

/-- From memories agreeing on the arguments both idealized programs end with the network of the arguments in their
    result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.GCN.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Chain.W10_v81 m ρ c), (h c).2⟩)
      (Cert.KernelIdeal.Result.run_result (F := Ideal) m ρ)
  · refine (θ_run Cert.ReferenceIdeal.defs _ _).mono (fun r h c =>
      ⟨(h c Cert.ReferenceIdeal.main_v138).trans ((Cert.ReferenceIdeal.Chain.result m' c).trans ?_),
       (h c Cert.ReferenceIdeal.main_arg0).trans (Cert.ReferenceIdeal.Chain.kept_arg0 m' c),
       (h c Cert.ReferenceIdeal.main_arg1).trans (Cert.ReferenceIdeal.Chain.kept_arg1 m' c),
       (h c Cert.ReferenceIdeal.main_arg2).trans (Cert.ReferenceIdeal.Chain.kept_arg2 m' c),
       (h c Cert.ReferenceIdeal.main_arg3).trans (Cert.ReferenceIdeal.Chain.kept_arg3 m' c),
       (h c Cert.ReferenceIdeal.main_arg4).trans (Cert.ReferenceIdeal.Chain.kept_arg4 m' c),
       (h c Cert.ReferenceIdeal.main_arg5).trans (Cert.ReferenceIdeal.Chain.kept_arg5 m' c),
       (h c Cert.ReferenceIdeal.main_arg6).trans (Cert.ReferenceIdeal.Chain.kept_arg6 m' c),
       (h c Cert.ReferenceIdeal.main_arg7).trans (Cert.ReferenceIdeal.Chain.kept_arg7 m' c)⟩)
      (Cert.ReferenceIdeal.Line.run (F := Ideal) m' ρ')
    obtain ⟨a0, a1, a2, a3, a4, a5, a6, a7⟩ := hagree c
    rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
